-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x47 .f32) (main_arg14 : FVec F S128x47 .f32) (main_arg15 : FVec F S47 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x47 .f32 := Host.absf main_arg13
  let main_cst_20 : FVec F S_ .f32 := constant S_ .f32 0x7F800000#32
  let main_v55 : FVec F S128x47 .f32 := broadcastInDim S128x47 ![] bcast_S_S128x47 main_cst_20
  let main_v56 : IVec S128x47 1 := cmpf .olt main_v54 main_v55
  let main_c_21 : IVec S_ 1 := constantI S_ 1 1#1
  let main_v57 : IVec S_ 1 := (fun x v => Host.reduce IntOp.andi x v reducesTo_S128x47_S_d0_1 h_S_) main_v56 main_c_21
  let main_v58 : IVec S_ 1 := andi main_v53 main_v57
  let main_v59 : FVec F S128x47 .f32 := Host.absf main_arg14
  let main_cst_22 : FVec F S_ .f32 := constant S_ .f32 0x7F800000#32
  let main_v60 : FVec F S128x47 .f32 := broadcastInDim S128x47 ![] bcast_S_S128x47 main_cst_22
  let main_v61 : IVec S128x47 1 := cmpf .olt main_v59 main_v60
  let main_c_23 : IVec S_ 1 := constantI S_ 1 1#1
  let main_v62 : IVec S_ 1 := (fun x v => Host.reduce IntOp.andi x v reducesTo_S128x47_S_d0_1 h_S_) main_v61 main_c_23
  let main_v63 : IVec S_ 1 := andi main_v58 main_v62
  let main_v64 : FVec F S47 .f32 := Host.absf main_arg15
  let main_cst_24 : FVec F S_ .f32 := constant S_ .f32 0x7F800000#32
  let main_v65 : FVec F S47 .f32 := broadcastInDim S47 ![] bcast_S_S47 main_cst_24
  let main_v66 : IVec S47 1 := cmpf .olt main_v64 main_v65
  let main_c_25 : IVec S_ 1 := constantI S_ 1 1#1
  let main_v67 : IVec S_ 1 := (fun x v => Host.reduce IntOp.andi x v reducesTo_S47_S_d0 h_S_) main_v66 main_c_25
  fn_part4 (F := F) main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128x47 .f32) (main_arg14 : FVec F S128x47 .f32) (main_arg15 : FVec F S47 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x47 .f32) (main_arg14 : FVec F S128x47 .f32) (main_arg15 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128x47 .f32) (main_arg14 : FVec F S128x47 .f32) (main_arg15 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x47 : Shape := ⟨2, ![1, 47]⟩
abbrev S50000x47 : Shape := ⟨2, ![50000, 47]⟩
abbrev S5000x47 : Shape := ⟨2, ![5000, 47]⟩

abbrev nBuf : Space → Nat
  | .hbm => 81
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x47, .f32⟩
  | .hbm, ⟨14, _⟩ => ⟨S128x47, .f32⟩
  | .hbm, ⟨15, _⟩ => ⟨S47, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x47, .f32⟩
  | .hbm, ⟨80, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x47, .f32⟩
  | .local _ .vmem, ⟨27, _⟩ => ⟨S128x47, .f32⟩
  | .local _ .vmem, ⟨28, _⟩ => ⟨S1x47, .f32⟩
  | .local _ .vmem, ⟨29, _⟩ => ⟨S5000x47, .f32⟩
  | .local _ .vmem, ⟨30, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S50000x47.size a
  hwx2_5 : ∀ i : grid2.Coords, EltTy.bits .f32 = 32 ∨ (Rect.block (s := S50000x47) S5000x47.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128x47, .f32⟩
  | 14 => ⟨S128x47, .f32⟩
  | 15 => ⟨S47, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000, .f32⟩
  | 49 => ⟨S50000x1, .f32⟩
  | 50 => ⟨S_, .f32⟩
  | 51 => ⟨S50000x1, .f32⟩
  | 52 => ⟨S50000x1, .f32⟩
  | 53 => ⟨S50000x128, .f32⟩
  | 54 => ⟨S50000x128, .f32⟩
  | 55 => ⟨S50000x128, .f32⟩
  | 56 => ⟨S_, .f32⟩
  | 57 => ⟨S50000, .f32⟩
  | 58 => ⟨S50000x1, .f32⟩
  | 59 => ⟨S_, .f32⟩
  | 60 => ⟨S50000x1, .f32⟩
  | 61 => ⟨S50000x1, .f32⟩
  | 62 => ⟨S50000x128, .f32⟩
  | 63 => ⟨S50000x128, .f32⟩
  | 64 => ⟨S_, .f32⟩
  | 65 => ⟨S50000x1, .f32⟩
  | 66 => ⟨S50000x1, .f32⟩
  | 67 => ⟨S50000x1, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x128, .f32⟩
  | 103 => ⟨S50000x128, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000, .f32⟩
  | 112 => ⟨S50000x1, .f32⟩
  | 113 => ⟨S_, .f32⟩
  | 114 => ⟨S50000x1, .f32⟩
  | 115 => ⟨S50000x1, .f32⟩
  | 116 => ⟨S50000x128, .f32⟩
  | 117 => ⟨S50000x128, .f32⟩
  | 118 => ⟨S50000x128, .f32⟩
  | 119 => ⟨S_, .f32⟩
  | 120 => ⟨S50000, .f32⟩
  | 121 => ⟨S50000x1, .f32⟩
  | 122 => ⟨S_, .f32⟩
  | 123 => ⟨S50000x1, .f32⟩
  | 124 => ⟨S50000x1, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S50000x47, .f32⟩
  | 40 => ⟨S50000x47, .f32⟩
  | 41 => ⟨S50000x47, .f32⟩
  | 42 => ⟨S1x47, .f32⟩
  | 43 => ⟨S50000x47, .f32⟩
  | 44 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call0_cst : Ref sig .tc := ⟨.hbm, 76, rfl⟩
abbrev main_call0_v0 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call1_cst : Ref sig .tc := ⟨.hbm, 139, rfl⟩
abbrev main_call1_v0 : Ref sig .tc := ⟨.hbm, 140, rfl⟩
abbrev main_v99 : Ref sig .tc := ⟨.hbm, 141, rfl⟩
abbrev main_c_20 : Ref sig .tc := ⟨.hbm, 142, rfl⟩
abbrev main_v100 : Ref sig .tc := ⟨.hbm, 143, rfl⟩
abbrev main_v101 : Ref sig .tc := ⟨.hbm, 144, rfl⟩
abbrev main_c_21 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_22 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_23 : Ref sig .tc := ⟨.hbm, 155, rfl⟩
abbrev main_v110 : Ref sig .tc := ⟨.hbm, 156, rfl⟩
abbrev main_cst_24 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_25 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KernelRun.lean ====
/-
  The idealized kernel program's run with its RESULT named.  The program is three tiled layer computations among
  stretches of host operations; every weakly fair execution ends, and at the end every buffer that outlives the
  tiled computations holds the contents reached by folding the stretches and the three write-back phases over the
  launch memory.  Read at the argument buffers this is the frame; read, in addition, at the result buffer it names
  the result: the contents the last tiled computation's write-backs leave in its output array.
-/
import proofs.«119647_j1709396984374_1_alg».proof.Proof.KernelIdealFrameP

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents the
    fold of the program's segments gives it, and the argument arrays end as launched. -/
theorem run_named : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Named

end
-- ==== Proof.Spec.lean ====
/-
  The mathematics both programs compute, stated once over the extended reals.

  A graph layer maps node features `h` (one row of 128 numbers per node) and the neighbour means
  `hn` (same shape) to `h · Wself + hn · Wneigh + b`, row by row.  A hidden layer then normalises
  each row: with `μ` the row's mean and `σ²` the mean of the squared deviations from `μ`, the entry
  `x` becomes `max ((x - μ) · (σ² + ε)^(-1/2) · γ + β) 0`.  Every row is computed from that row of
  `h` and `hn` alone, which is why a tiling of the rows changes nothing.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A matrix of extended reals with `n` rows and `d` columns, indexed as the programs index it. -/
abbrev Arr (n d : Nat) : Type := (⟨2, ![n, d]⟩ : Shape).Idx → EReal

/-- Row `r` of a matrix with 128 columns. -/
def row {n : Nat} (X : Arr n 128) (r : Fin n) : Fin 128 → EReal := fun k => X (ix2 r k)

/-- One node's linear part at output feature `q`: the node's own row against `ws`, its neighbour mean's
    row against `wn`, plus the bias. -/
def pre {D : Nat} (hr hnr : Fin 128 → EReal) (ws wn : Arr 128 D) (b : Fin D → EReal) (q : Fin D) : EReal :=
  ((∑ k : Fin 128, hr k * ws (ix2 k q)) + (∑ k : Fin 128, hnr k * wn (ix2 k q))) + b q

/-- The mean of a row of 128 numbers: their sum divided by 128 (the divisor kept as the word both programs write). -/
def mean (x : Fin 128 → EReal) : EReal := Ideal.div (∑ q : Fin 128, x q) (Ideal.ofBits .f32 0x43000000#32)

/-- Row normalisation, scale, shift and the positive part, at feature `q`. -/
def normRelu (x g be : Fin 128 → EReal) (q : Fin 128) : EReal :=
  max ((((x q - mean x) * Ideal.rsqrt (mean (fun j => (x j - mean x) * (x j - mean x)) + Ideal.ofBits .f32 0x3727C5AC#32)) * g q) + be q)
    (Ideal.ofBits .f32 0x00000000#32)

/-- A hidden layer on `n` nodes. -/
def hidden {n : Nat} (h hn : Arr n 128) (ws wn : Arr 128 128) (b g be : Fin 128 → EReal) : Arr n 128 :=
  fun i => normRelu (pre (row h (i 0)) (row hn (i 0)) ws wn b) g be (i 1)

/-- The output layer on `n` nodes: the linear part alone, 47 classes. -/
def plain {n : Nat} (h hn : Arr n 128) (ws wn : Arr 128 47) (b : Fin 47 → EReal) : Arr n 47 :=
  fun i => pre (row h (i 0)) (row hn (i 0)) ws wn b (i 1)

/-- A layer's row depends only on the same row of its two inputs: if rows `r'` of the small matrices are rows `r`
    of the large ones, the hidden layer agrees there. -/
theorem hidden_of_rows {n n' : Nat} (H HN : Arr n 128) (x0 x1 : Arr n' 128) (ws wn : Arr 128 128) (b g be : Fin 128 → EReal)
    (r : Fin n) (r' : Fin n') (q : Fin 128)
    (h0 : ∀ k : Fin 128, x0 (ix2 r' k) = H (ix2 r k)) (h1 : ∀ k : Fin 128, x1 (ix2 r' k) = HN (ix2 r k)) :
    hidden x0 x1 ws wn b g be (ix2 r' q) = hidden H HN ws wn b g be (ix2 r q) := by
  have e0 : row x0 r' = row H r := funext h0
  have e1 : row x1 r' = row HN r := funext h1
  show normRelu (pre (row x0 r') (row x1 r') ws wn b) g be q = normRelu (pre (row H r) (row HN r) ws wn b) g be q
  rw [e0, e1]

theorem plain_of_rows {n n' : Nat} (H HN : Arr n 128) (x0 x1 : Arr n' 128) (ws wn : Arr 128 47) (b : Fin 47 → EReal)
    (r : Fin n) (r' : Fin n') (q : Fin 47)
    (h0 : ∀ k : Fin 128, x0 (ix2 r' k) = H (ix2 r k)) (h1 : ∀ k : Fin 128, x1 (ix2 r' k) = HN (ix2 r k)) :
    plain x0 x1 ws wn b (ix2 r' q) = plain H HN ws wn b (ix2 r q) := by
  have e0 : row x0 r' = row H r := funext h0
  have e1 : row x1 r' = row HN r := funext h1
  show pre (row x0 r') (row x1 r') ws wn b q = pre (row H r) (row HN r) ws wn b q
  rw [e0, e1]

end Cert.Sage

end
-- ==== Proof.Tiles0.lean ====
/-
  Tiled layer computation 0, from its blocks to its whole output array.  The row tiles are 5000 rows each, ten of them;
  tile `t` reads rows `5000 t … 5000 t + 4999` of the node features and of the neighbour means, and the whole of every
  other operand, and writes the same rows of the output.  Since a layer's row depends only on that row of its two
  row-wise inputs, what tile `t` writes is the restriction to its rows of ONE function of the whole input arrays; the
  tiles cover every row (row `r` lies in tile `r / 5000`), so the output array ends holding that function.
-/
import proofs.«119647_j1709396984374_1_alg».proof.Proof.KernelIdealFrameP
import proofs.«119647_j1709396984374_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles0

open Cert.KernelIdeal Cert.KernelIdeal.Gen Cert.KernelIdeal.GenP

/-- A one-row matrix as the function of its column. -/
abbrev rowVec {d : Nat} (x : (⟨2, ![1, d]⟩ : Shape).Idx → EReal) : Fin d → EReal := fun q => x (ix2 (0 : Fin 1) q)

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten tiles: the two row-wise inputs and the output move with the tile, every other
    operand stays at its one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of window 0's block at point `t` is row `5000 t + p` of its array. -/
theorem iblk0_0_row (c : Dev nD) (t : Fin cfg0.N) (p : Fin 5000) (k : Fin 128) (r : Fin 50000) (hr : r.val = t.val * 5000 + p.val) :
    (iblk0 V c 0 t : S5000x128.Idx → EReal) (ix2 p k) = (V c main_arg0 : S50000x128.Idx → EReal) (ix2 r k) := by
  obtain ⟨e0a, e0b, e1a, e1b, e2a, e2b, e3a, e3b, e4a, e4b, e5a, e5b, e6a, e6b, e7a, e7b⟩ := idx_facts0 t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0a, hr]; omega
  | ⟨1, _⟩ => show win0_0.index t (1 : Fin 2) * 128 + 1 * k.val = k.val; rw [e0b]; omega

/-- Row `p` of window 1's block at point `t` is row `5000 t + p` of its array. -/
theorem iblk0_1_row (c : Dev nD) (t : Fin cfg0.N) (p : Fin 5000) (k : Fin 128) (r : Fin 50000) (hr : r.val = t.val * 5000 + p.val) :
    (iblk0 V c 1 t : S5000x128.Idx → EReal) (ix2 p k) = (V c main_v18 : S50000x128.Idx → EReal) (ix2 r k) := by
  obtain ⟨e0a, e0b, e1a, e1b, e2a, e2b, e3a, e3b, e4a, e4b, e5a, e5b, e6a, e6b, e7a, e7b⟩ := idx_facts0 t
  unfold iblk0
  rw [View.read_apply]
  show V c main_v18 (((cfg0.win 1).blk t).view.emb (ix2 p k)) = V c main_v18 (ix2 r k)
  refine congrArg (V c main_v18) (funext fun a => Fin.ext ?_)
  match a with
  | ⟨0, _⟩ => show win0_1.index t (0 : Fin 2) * 5000 + 1 * p.val = r.val; rw [e1a, hr]; omega
  | ⟨1, _⟩ => show win0_1.index t (1 : Fin 2) * 128 + 1 * k.val = k.val; rw [e1b]; omega

/-- Window 2's one block is its whole array: read through it, the array is itself. -/
theorem iblk0_2_eq (c : Dev nD) (t : Fin cfg0.N) : (iblk0 V c 2 t : S128x128.Idx → EReal) = V c main_arg3 := by
  obtain ⟨e0a, e0b, e1a, e1b, e2a, e2b, e3a, e3b, e4a, e4b, e5a, e5b, e6a, e6b, e7a, e7b⟩ := idx_facts0 t
  funext y
  unfold iblk0
  rw [View.read_apply]
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; rw [e2a]; omega
  | ⟨1, _⟩ => show win0_2.index t (1 : Fin 2) * 128 + 1 * (y 1).val = (y 1).val; rw [e2b]; omega

/-- Window 3's one block is its whole array: read through it, the array is itself. -/
theorem iblk0_3_eq (c : Dev nD) (t : Fin cfg0.N) : (iblk0 V c 3 t : S128x128.Idx → EReal) = V c main_arg4 := by
  obtain ⟨e0a, e0b, e1a, e1b, e2a, e2b, e3a, e3b, e4a, e4b, e5a, e5b, e6a, e6b, e7a, e7b⟩ := idx_facts0 t
  funext y
  unfold iblk0
  rw [View.read_apply]
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; rw [e3a]; omega
  | ⟨1, _⟩ => show win0_3.index t (1 : Fin 2) * 128 + 1 * (y 1).val = (y 1).val; rw [e3b]; omega

/-- Window 4's one block is its whole array: read through it, the array is itself. -/
theorem iblk0_4_eq (c : Dev nD) (t : Fin cfg0.N) : (iblk0 V c 4 t : S1x128.Idx → EReal) = V c main_v19 := by
  obtain ⟨e0a, e0b, e1a, e1b, e2a, e2b, e3a, e3b, e4a, e4b, e5a, e5b, e6a, e6b, e7a, e7b⟩ := idx_facts0 t
  funext y
  unfold iblk0
  rw [View.read_apply]
  show V c main_v19 (((cfg0.win 4).blk t).view.emb y) = V c main_v19 y
  refine congrArg (V c main_v19) (funext fun a => Fin.ext ?_)
  match a with
  | ⟨0, _⟩ => show win0_4.index t (0 : Fin 2) * 1 + 1 * (y 0).val = (y 0).val; rw [e4a]; omega
  | ⟨1, _⟩ => show win0_4.index t (1 : Fin 2) * 128 + 1 * (y 1).val = (y 1).val; rw [e4b]; omega

/-- Window 5's one block is its whole array: read through it, the array is itself. -/
theorem iblk0_5_eq (c : Dev nD) (t : Fin cfg0.N) : (iblk0 V c 5 t : S1x128.Idx → EReal) = V c main_v20 := by
  obtain ⟨e0a, e0b, e1a, e1b, e2a, e2b, e3a, e3b, e4a, e4b, e5a, e5b, e6a, e6b, e7a, e7b⟩ := idx_facts0 t
  funext y
  unfold iblk0
  rw [View.read_apply]
  show V c main_v20 (((cfg0.win 5).blk t).view.emb y) = V c main_v20 y
  refine congrArg (V c main_v20) (funext fun a => Fin.ext ?_)
  match a with
  | ⟨0, _⟩ => show win0_5.index t (0 : Fin 2) * 1 + 1 * (y 0).val = (y 0).val; rw [e5a]; omega
  | ⟨1, _⟩ => show win0_5.index t (1 : Fin 2) * 128 + 1 * (y 1).val = (y 1).val; rw [e5b]; omega

/-- Window 6's one block is its whole array: read through it, the array is itself. -/
theorem iblk0_6_eq (c : Dev nD) (t : Fin cfg0.N) : (iblk0 V c 6 t : S1x128.Idx → EReal) = V c main_v21 := by
  obtain ⟨e0a, e0b, e1a, e1b, e2a, e2b, e3a, e3b, e4a, e4b, e5a, e5b, e6a, e6b, e7a, e7b⟩ := idx_facts0 t
  funext y
  unfold iblk0
  rw [View.read_apply]
  show V c main_v21 (((cfg0.win 6).blk t).view.emb y) = V c main_v21 y
  refine congrArg (V c main_v21) (funext fun a => Fin.ext ?_)
  match a with
  | ⟨0, _⟩ => show win0_6.index t (0 : Fin 2) * 1 + 1 * (y 0).val = (y 0).val; rw [e6a]; omega
  | ⟨1, _⟩ => show win0_6.index t (1 : Fin 2) * 128 + 1 * (y 1).val = (y 1).val; rw [e6b]; omega

/-- The function the output array ends holding, of the arrays as the tiled computation finds them. -/
abbrev G0 (c : Dev nD) : S50000x128.Idx → EReal :=
  Cert.Sage.hidden (V c main_arg0) (V c main_v18) (V c main_arg3) (V c main_arg4) (rowVec (V c main_v19)) (rowVec (V c main_v20)) (rowVec (V c main_v21))

/-- What tile `t` writes back is the rows of `G0` under it. -/
theorem flushed0 (hpay : ∀ (x0 x1 : Vec Ideal S5000x128 .f32) (x2 x3 : Vec Ideal S128x128 .f32) (x4 x5 x6 : Vec Ideal S1x128 .f32), k0_pay1 (F := Ideal) (k0_pay2 (F := Ideal) x0 x1 x2 x3 x4 x5) x6 = Cert.Sage.hidden x0 x1 x2 x3 (rowVec x4) (rowVec x5) (rowVec x6))
    (c : Dev nD) (t : Fin cfg0.N) :
    (dat0 V c).flushed 7 t = ((cfg0.win 7).blk t).view.read (Elt Ideal) (G0 V c) := by
  obtain ⟨e0a, e0b, e1a, e1b, e2a, e2b, e3a, e3b, e4a, e4b, e5a, e5b, e6a, e6b, e7a, e7b⟩ := idx_facts0 t
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  rw [hpay]
  funext j
  obtain ⟨p, q, rfl⟩ : ∃ (p : Fin 5000) (q : Fin 128), j = ix2 p q := ⟨j 0, j 1, eq_ix2 j⟩
  rw [View.read_apply]
  have hrlt : t.val * 5000 + p.val < 50000 := by
    have ht : t.val < 10 := lt_of_lt_of_eq t.isLt N_0
    have hp := p.isLt; omega
  have hemb : ((cfg0.win 7).blk t).view.emb (ix2 p q) = (ix2 (⟨t.val * 5000 + p.val, hrlt⟩ : Fin 50000) q : S50000x128.Idx) := by
    funext a; apply Fin.ext
    match a with
    | ⟨0, _⟩ => show win0_7.index t (0 : Fin 2) * 5000 + 1 * p.val = t.val * 5000 + p.val; rw [e7a]; omega
    | ⟨1, _⟩ => show win0_7.index t (1 : Fin 2) * 128 + 1 * q.val = q.val; rw [e7b]; omega
  rw [hemb, iblk0_2_eq, iblk0_3_eq, iblk0_4_eq, iblk0_5_eq, iblk0_6_eq]
  exact Cert.Sage.hidden_of_rows _ _ _ _ _ _ _ _ _ ⟨t.val * 5000 + p.val, hrlt⟩ p q
    (fun k => iblk0_0_row V c t p k _ rfl) (fun k => iblk0_1_row V c t p k _ rfl)

/-- An index of the output array lies under tile `t` iff its row does. -/
theorem mem_blk0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v22).slice (win0_7.rect t)).set ↔ _
  rw [View.set_slice_whole, Rect.mem_set_unit]
  exact Iff.rfl

/-- The output array after the ten write-backs. -/
theorem final0 (hpay : ∀ (x0 x1 : Vec Ideal S5000x128 .f32) (x2 x3 : Vec Ideal S128x128 .f32) (x4 x5 x6 : Vec Ideal S1x128 .f32), k0_pay1 (F := Ideal) (k0_pay2 (F := Ideal) x0 x1 x2 x3 x4 x5) x6 = Cert.Sage.hidden x0 x1 x2 x3 (rowVec x4) (rowVec x5) (rowVec x6))
    (c : Dev nD) : (dat0 V c).arrAt 7 cfg0.N = G0 V c :=
  (dat0 V c).arrAt_eq_of_cover 7 (G0 V c) (fun t _ => flushed0 V hpay c t) fun i => by
    have hi0 : (i 0).val < 50000 := (i 0).isLt
    have hi1 : (i 1).val < 128 := (i 1).isLt
    have hN : cfg0.N = 10 := N_0
    let t : Fin cfg0.N := ⟨(i 0).val / 5000, by rw [hN]; omega⟩
    obtain ⟨e0a, e0b, e1a, e1b, e2a, e2b, e3a, e3b, e4a, e4b, e5a, e5b, e6a, e6b, e7a, e7b⟩ := idx_facts0 t
    refine ⟨t, flush0_7 t, ?_⟩
    rw [mem_blk0]
    intro a
    have ht : t.val = (i 0).val / 5000 := rfl
    match a with
    | ⟨0, _⟩ => show win0_7.index t (0 : Fin 2) * 5000 ≤ (i 0).val ∧ (i 0).val < win0_7.index t (0 : Fin 2) * 5000 + 5000; rw [e7a, ht]; omega
    | ⟨1, _⟩ => show win0_7.index t (1 : Fin 2) * 128 ≤ (i 1).val ∧ (i 1).val < win0_7.index t (1 : Fin 2) * 128 + 128; rw [e7b]; omega

end Cert.KernelIdeal.Tiles0

end
-- ==== Proof.Tiles1.lean ====
/-
  Tiled layer computation 1, from its blocks to its whole output array.  The row tiles are 5000 rows each, ten of them;
  tile `t` reads rows `5000 t … 5000 t + 4999` of the node features and of the neighbour means, and the whole of every
  other operand, and writes the same rows of the output.  Since a layer's row depends only on that row of its two
  row-wise inputs, what tile `t` writes is the restriction to its rows of ONE function of the whole input arrays; the
  tiles cover every row (row `r` lies in tile `r / 5000`), so the output array ends holding that function.
-/
import proofs.«119647_j1709396984374_1_alg».proof.Proof.KernelIdealFrameP
import proofs.«119647_j1709396984374_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles1

open Cert.KernelIdeal Cert.KernelIdeal.Gen Cert.KernelIdeal.GenP

/-- A one-row matrix as the function of its column. -/
abbrev rowVec {d : Nat} (x : (⟨2, ![1, d]⟩ : Shape).Idx → EReal) : Fin d → EReal := fun q => x (ix2 (0 : Fin 1) q)

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten tiles: the two row-wise inputs and the output move with the tile, every other
    operand stays at its one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of window 0's block at point `t` is row `5000 t + p` of its array. -/
theorem iblk1_0_row (c : Dev nD) (t : Fin cfg1.N) (p : Fin 5000) (k : Fin 128) (r : Fin 50000) (hr : r.val = t.val * 5000 + p.val) :
    (iblk1 V c 0 t : S5000x128.Idx → EReal) (ix2 p k) = (V c main_v22 : S50000x128.Idx → EReal) (ix2 r k) := by
  obtain ⟨e0a, e0b, e1a, e1b, e2a, e2b, e3a, e3b, e4a, e4b, e5a, e5b, e6a, e6b, e7a, e7b⟩ := idx_facts1 t
  unfold iblk1
  rw [View.read_apply]
  show V c main_v22 (((cfg1.win 0).blk t).view.emb (ix2 p k)) = V c main_v22 (ix2 r k)
  refine congrArg (V c main_v22) (funext fun a => Fin.ext ?_)
  match a with
  | ⟨0, _⟩ => show win1_0.index t (0 : Fin 2) * 5000 + 1 * p.val = r.val; rw [e0a, hr]; omega
  | ⟨1, _⟩ => show win1_0.index t (1 : Fin 2) * 128 + 1 * k.val = k.val; rw [e0b]; omega

/-- Row `p` of window 1's block at point `t` is row `5000 t + p` of its array. -/
theorem iblk1_1_row (c : Dev nD) (t : Fin cfg1.N) (p : Fin 5000) (k : Fin 128) (r : Fin 50000) (hr : r.val = t.val * 5000 + p.val) :
    (iblk1 V c 1 t : S5000x128.Idx → EReal) (ix2 p k) = (V c main_v34 : S50000x128.Idx → EReal) (ix2 r k) := by
  obtain ⟨e0a, e0b, e1a, e1b, e2a, e2b, e3a, e3b, e4a, e4b, e5a, e5b, e6a, e6b, e7a, e7b⟩ := idx_facts1 t
  unfold iblk1
  rw [View.read_apply]
  show V c main_v34 (((cfg1.win 1).blk t).view.emb (ix2 p k)) = V c main_v34 (ix2 r k)
  refine congrArg (V c main_v34) (funext fun a => Fin.ext ?_)
  match a with
  | ⟨0, _⟩ => show win1_1.index t (0 : Fin 2) * 5000 + 1 * p.val = r.val; rw [e1a, hr]; omega
  | ⟨1, _⟩ => show win1_1.index t (1 : Fin 2) * 128 + 1 * k.val = k.val; rw [e1b]; omega

/-- Window 2's one block is its whole array: read through it, the array is itself. -/
theorem iblk1_2_eq (c : Dev nD) (t : Fin cfg1.N) : (iblk1 V c 2 t : S128x128.Idx → EReal) = V c main_arg8 := by
  obtain ⟨e0a, e0b, e1a, e1b, e2a, e2b, e3a, e3b, e4a, e4b, e5a, e5b, e6a, e6b, e7a, e7b⟩ := idx_facts1 t
  funext y
  unfold iblk1
  rw [View.read_apply]
  show V c main_arg8 (((cfg1.win 2).blk t).view.emb y) = V c main_arg8 y
  refine congrArg (V c main_arg8) (funext fun a => Fin.ext ?_)
  match a with
  | ⟨0, _⟩ => show win1_2.index t (0 : Fin 2) * 128 + 1 * (y 0).val = (y 0).val; rw [e2a]; omega
  | ⟨1, _⟩ => show win1_2.index t (1 : Fin 2) * 128 + 1 * (y 1).val = (y 1).val; rw [e2b]; omega

/-- Window 3's one block is its whole array: read through it, the array is itself. -/
theorem iblk1_3_eq (c : Dev nD) (t : Fin cfg1.N) : (iblk1 V c 3 t : S128x128.Idx → EReal) = V c main_arg9 := by
  obtain ⟨e0a, e0b, e1a, e1b, e2a, e2b, e3a, e3b, e4a, e4b, e5a, e5b, e6a, e6b, e7a, e7b⟩ := idx_facts1 t
  funext y
  unfold iblk1
  rw [View.read_apply]
  show V c main_arg9 (((cfg1.win 3).blk t).view.emb y) = V c main_arg9 y
  refine congrArg (V c main_arg9) (funext fun a => Fin.ext ?_)
  match a with
  | ⟨0, _⟩ => show win1_3.index t (0 : Fin 2) * 128 + 1 * (y 0).val = (y 0).val; rw [e3a]; omega
  | ⟨1, _⟩ => show win1_3.index t (1 : Fin 2) * 128 + 1 * (y 1).val = (y 1).val; rw [e3b]; omega

/-- Window 4's one block is its whole array: read through it, the array is itself. -/
theorem iblk1_4_eq (c : Dev nD) (t : Fin cfg1.N) : (iblk1 V c 4 t : S1x128.Idx → EReal) = V c main_v35 := by
  obtain ⟨e0a, e0b, e1a, e1b, e2a, e2b, e3a, e3b, e4a, e4b, e5a, e5b, e6a, e6b, e7a, e7b⟩ := idx_facts1 t
  funext y
  unfold iblk1
  rw [View.read_apply]
  show V c main_v35 (((cfg1.win 4).blk t).view.emb y) = V c main_v35 y
  refine congrArg (V c main_v35) (funext fun a => Fin.ext ?_)
  match a with
  | ⟨0, _⟩ => show win1_4.index t (0 : Fin 2) * 1 + 1 * (y 0).val = (y 0).val; rw [e4a]; omega
  | ⟨1, _⟩ => show win1_4.index t (1 : Fin 2) * 128 + 1 * (y 1).val = (y 1).val; rw [e4b]; omega

/-- Window 5's one block is its whole array: read through it, the array is itself. -/
theorem iblk1_5_eq (c : Dev nD) (t : Fin cfg1.N) : (iblk1 V c 5 t : S1x128.Idx → EReal) = V c main_v36 := by
  obtain ⟨e0a, e0b, e1a, e1b, e2a, e2b, e3a, e3b, e4a, e4b, e5a, e5b, e6a, e6b, e7a, e7b⟩ := idx_facts1 t
  funext y
  unfold iblk1
  rw [View.read_apply]
  show V c main_v36 (((cfg1.win 5).blk t).view.emb y) = V c main_v36 y
  refine congrArg (V c main_v36) (funext fun a => Fin.ext ?_)
  match a with
  | ⟨0, _⟩ => show win1_5.index t (0 : Fin 2) * 1 + 1 * (y 0).val = (y 0).val; rw [e5a]; omega
  | ⟨1, _⟩ => show win1_5.index t (1 : Fin 2) * 128 + 1 * (y 1).val = (y 1).val; rw [e5b]; omega

/-- Window 6's one block is its whole array: read through it, the array is itself. -/
theorem iblk1_6_eq (c : Dev nD) (t : Fin cfg1.N) : (iblk1 V c 6 t : S1x128.Idx → EReal) = V c main_v37 := by
  obtain ⟨e0a, e0b, e1a, e1b, e2a, e2b, e3a, e3b, e4a, e4b, e5a, e5b, e6a, e6b, e7a, e7b⟩ := idx_facts1 t
  funext y
  unfold iblk1
  rw [View.read_apply]
  show V c main_v37 (((cfg1.win 6).blk t).view.emb y) = V c main_v37 y
  refine congrArg (V c main_v37) (funext fun a => Fin.ext ?_)
  match a with
  | ⟨0, _⟩ => show win1_6.index t (0 : Fin 2) * 1 + 1 * (y 0).val = (y 0).val; rw [e6a]; omega
  | ⟨1, _⟩ => show win1_6.index t (1 : Fin 2) * 128 + 1 * (y 1).val = (y 1).val; rw [e6b]; omega

/-- The function the output array ends holding, of the arrays as the tiled computation finds them. -/
abbrev G1 (c : Dev nD) : S50000x128.Idx → EReal :=
  Cert.Sage.hidden (V c main_v22) (V c main_v34) (V c main_arg8) (V c main_arg9) (rowVec (V c main_v35)) (rowVec (V c main_v36)) (rowVec (V c main_v37))

/-- What tile `t` writes back is the rows of `G1` under it. -/
theorem flushed1 (hpay : ∀ (x0 x1 : Vec Ideal S5000x128 .f32) (x2 x3 : Vec Ideal S128x128 .f32) (x4 x5 x6 : Vec Ideal S1x128 .f32), k1_pay1 (F := Ideal) (k1_pay2 (F := Ideal) x0 x1 x2 x3 x4 x5) x6 = Cert.Sage.hidden x0 x1 x2 x3 (rowVec x4) (rowVec x5) (rowVec x6))
    (c : Dev nD) (t : Fin cfg1.N) :
    (dat1 V c).flushed 7 t = ((cfg1.win 7).blk t).view.read (Elt Ideal) (G1 V c) := by
  obtain ⟨e0a, e0b, e1a, e1b, e2a, e2b, e3a, e3b, e4a, e4b, e5a, e5b, e6a, e6b, e7a, e7b⟩ := idx_facts1 t
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [hpay]
  funext j
  obtain ⟨p, q, rfl⟩ : ∃ (p : Fin 5000) (q : Fin 128), j = ix2 p q := ⟨j 0, j 1, eq_ix2 j⟩
  rw [View.read_apply]
  have hrlt : t.val * 5000 + p.val < 50000 := by
    have ht : t.val < 10 := lt_of_lt_of_eq t.isLt N_1
    have hp := p.isLt; omega
  have hemb : ((cfg1.win 7).blk t).view.emb (ix2 p q) = (ix2 (⟨t.val * 5000 + p.val, hrlt⟩ : Fin 50000) q : S50000x128.Idx) := by
    funext a; apply Fin.ext
    match a with
    | ⟨0, _⟩ => show win1_7.index t (0 : Fin 2) * 5000 + 1 * p.val = t.val * 5000 + p.val; rw [e7a]; omega
    | ⟨1, _⟩ => show win1_7.index t (1 : Fin 2) * 128 + 1 * q.val = q.val; rw [e7b]; omega
  rw [hemb, iblk1_2_eq, iblk1_3_eq, iblk1_4_eq, iblk1_5_eq, iblk1_6_eq]
  exact Cert.Sage.hidden_of_rows _ _ _ _ _ _ _ _ _ ⟨t.val * 5000 + p.val, hrlt⟩ p q
    (fun k => iblk1_0_row V c t p k _ rfl) (fun k => iblk1_1_row V c t p k _ rfl)

/-- An index of the output array lies under tile `t` iff its row does. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v38).slice (win1_7.rect t)).set ↔ _
  rw [View.set_slice_whole, Rect.mem_set_unit]
  exact Iff.rfl

/-- The output array after the ten write-backs. -/
theorem final1 (hpay : ∀ (x0 x1 : Vec Ideal S5000x128 .f32) (x2 x3 : Vec Ideal S128x128 .f32) (x4 x5 x6 : Vec Ideal S1x128 .f32), k1_pay1 (F := Ideal) (k1_pay2 (F := Ideal) x0 x1 x2 x3 x4 x5) x6 = Cert.Sage.hidden x0 x1 x2 x3 (rowVec x4) (rowVec x5) (rowVec x6))
    (c : Dev nD) : (dat1 V c).arrAt 7 cfg1.N = G1 V c :=
  (dat1 V c).arrAt_eq_of_cover 7 (G1 V c) (fun t _ => flushed1 V hpay c t) fun i => by
    have hi0 : (i 0).val < 50000 := (i 0).isLt
    have hi1 : (i 1).val < 128 := (i 1).isLt
    have hN : cfg1.N = 10 := N_1
    let t : Fin cfg1.N := ⟨(i 0).val / 5000, by rw [hN]; omega⟩
    obtain ⟨e0a, e0b, e1a, e1b, e2a, e2b, e3a, e3b, e4a, e4b, e5a, e5b, e6a, e6b, e7a, e7b⟩ := idx_facts1 t
    refine ⟨t, flush1_7 t, ?_⟩
    rw [mem_blk1]
    intro a
    have ht : t.val = (i 0).val / 5000 := rfl
    match a with
    | ⟨0, _⟩ => show win1_7.index t (0 : Fin 2) * 5000 ≤ (i 0).val ∧ (i 0).val < win1_7.index t (0 : Fin 2) * 5000 + 5000; rw [e7a, ht]; omega
    | ⟨1, _⟩ => show win1_7.index t (1 : Fin 2) * 128 ≤ (i 1).val ∧ (i 1).val < win1_7.index t (1 : Fin 2) * 128 + 128; rw [e7b]; omega

end Cert.KernelIdeal.Tiles1

end
-- ==== Proof.Tiles2.lean ====
/-
  Tiled layer computation 2, from its blocks to its whole output array.  The row tiles are 5000 rows each, ten of them;
  tile `t` reads rows `5000 t … 5000 t + 4999` of the node features and of the neighbour means, and the whole of every
  other operand, and writes the same rows of the output.  Since a layer's row depends only on that row of its two
  row-wise inputs, what tile `t` writes is the restriction to its rows of ONE function of the whole input arrays; the
  tiles cover every row (row `r` lies in tile `r / 5000`), so the output array ends holding that function.
-/
import proofs.«119647_j1709396984374_1_alg».proof.Proof.KernelIdealFrameP
import proofs.«119647_j1709396984374_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles2

open Cert.KernelIdeal Cert.KernelIdeal.Gen Cert.KernelIdeal.GenP

/-- A one-row matrix as the function of its column. -/
abbrev rowVec {d : Nat} (x : (⟨2, ![1, d]⟩ : Shape).Idx → EReal) : Fin d → EReal := fun q => x (ix2 (0 : Fin 1) q)

variable (V : (c : Dev nD) → (b : Ref sig .tc) → Buf (Elt Ideal) ((c : Thread nD τ).loc b))

theorem hz : (![0, 0] : Fin 2 → Nat) = fun _ => 0 := funext fun a => by fin_cases a <;> rfl

/-- The block index maps over the ten tiles: the two row-wise inputs and the output move with the tile, every other
    operand stays at its one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of window 0's block at point `t` is row `5000 t + p` of its array. -/
theorem iblk2_0_row (c : Dev nD) (t : Fin cfg2.N) (p : Fin 5000) (k : Fin 128) (r : Fin 50000) (hr : r.val = t.val * 5000 + p.val) :
    (iblk2 V c 0 t : S5000x128.Idx → EReal) (ix2 p k) = (V c main_v38 : S50000x128.Idx → EReal) (ix2 r k) := by
  obtain ⟨e0a, e0b, e1a, e1b, e2a, e2b, e3a, e3b, e4a, e4b, e5a, e5b⟩ := idx_facts2 t
  unfold iblk2
  rw [View.read_apply]
  show V c main_v38 (((cfg2.win 0).blk t).view.emb (ix2 p k)) = V c main_v38 (ix2 r k)
  refine congrArg (V c main_v38) (funext fun a => Fin.ext ?_)
  match a with
  | ⟨0, _⟩ => show win2_0.index t (0 : Fin 2) * 5000 + 1 * p.val = r.val; rw [e0a, hr]; omega
  | ⟨1, _⟩ => show win2_0.index t (1 : Fin 2) * 128 + 1 * k.val = k.val; rw [e0b]; omega

/-- Row `p` of window 1's block at point `t` is row `5000 t + p` of its array. -/
theorem iblk2_1_row (c : Dev nD) (t : Fin cfg2.N) (p : Fin 5000) (k : Fin 128) (r : Fin 50000) (hr : r.val = t.val * 5000 + p.val) :
    (iblk2 V c 1 t : S5000x128.Idx → EReal) (ix2 p k) = (V c main_v50 : S50000x128.Idx → EReal) (ix2 r k) := by
  obtain ⟨e0a, e0b, e1a, e1b, e2a, e2b, e3a, e3b, e4a, e4b, e5a, e5b⟩ := idx_facts2 t
  unfold iblk2
  rw [View.read_apply]
  show V c main_v50 (((cfg2.win 1).blk t).view.emb (ix2 p k)) = V c main_v50 (ix2 r k)
  refine congrArg (V c main_v50) (funext fun a => Fin.ext ?_)
  match a with
  | ⟨0, _⟩ => show win2_1.index t (0 : Fin 2) * 5000 + 1 * p.val = r.val; rw [e1a, hr]; omega
  | ⟨1, _⟩ => show win2_1.index t (1 : Fin 2) * 128 + 1 * k.val = k.val; rw [e1b]; omega

/-- Window 2's one block is its whole array: read through it, the array is itself. -/
theorem iblk2_2_eq (c : Dev nD) (t : Fin cfg2.N) : (iblk2 V c 2 t : S128x47.Idx → EReal) = V c main_arg13 := by
  obtain ⟨e0a, e0b, e1a, e1b, e2a, e2b, e3a, e3b, e4a, e4b, e5a, e5b⟩ := idx_facts2 t
  funext y
  unfold iblk2
  rw [View.read_apply]
  show V c main_arg13 (((cfg2.win 2).blk t).view.emb y) = V c main_arg13 y
  refine congrArg (V c main_arg13) (funext fun a => Fin.ext ?_)
  match a with
  | ⟨0, _⟩ => show win2_2.index t (0 : Fin 2) * 128 + 1 * (y 0).val = (y 0).val; rw [e2a]; omega
  | ⟨1, _⟩ => show win2_2.index t (1 : Fin 2) * 47 + 1 * (y 1).val = (y 1).val; rw [e2b]; omega

/-- Window 3's one block is its whole array: read through it, the array is itself. -/
theorem iblk2_3_eq (c : Dev nD) (t : Fin cfg2.N) : (iblk2 V c 3 t : S128x47.Idx → EReal) = V c main_arg14 := by
  obtain ⟨e0a, e0b, e1a, e1b, e2a, e2b, e3a, e3b, e4a, e4b, e5a, e5b⟩ := idx_facts2 t
  funext y
  unfold iblk2
  rw [View.read_apply]
  show V c main_arg14 (((cfg2.win 3).blk t).view.emb y) = V c main_arg14 y
  refine congrArg (V c main_arg14) (funext fun a => Fin.ext ?_)
  match a with
  | ⟨0, _⟩ => show win2_3.index t (0 : Fin 2) * 128 + 1 * (y 0).val = (y 0).val; rw [e3a]; omega
  | ⟨1, _⟩ => show win2_3.index t (1 : Fin 2) * 47 + 1 * (y 1).val = (y 1).val; rw [e3b]; omega

/-- Window 4's one block is its whole array: read through it, the array is itself. -/
theorem iblk2_4_eq (c : Dev nD) (t : Fin cfg2.N) : (iblk2 V c 4 t : S1x47.Idx → EReal) = V c main_v51 := by
  obtain ⟨e0a, e0b, e1a, e1b, e2a, e2b, e3a, e3b, e4a, e4b, e5a, e5b⟩ := idx_facts2 t
  funext y
  unfold iblk2
  rw [View.read_apply]
  show V c main_v51 (((cfg2.win 4).blk t).view.emb y) = V c main_v51 y
  refine congrArg (V c main_v51) (funext fun a => Fin.ext ?_)
  match a with
  | ⟨0, _⟩ => show win2_4.index t (0 : Fin 2) * 1 + 1 * (y 0).val = (y 0).val; rw [e4a]; omega
  | ⟨1, _⟩ => show win2_4.index t (1 : Fin 2) * 47 + 1 * (y 1).val = (y 1).val; rw [e4b]; omega

/-- The function the output array ends holding, of the arrays as the tiled computation finds them. -/
abbrev G2 (c : Dev nD) : S50000x47.Idx → EReal :=
  Cert.Sage.plain (V c main_v38) (V c main_v50) (V c main_arg13) (V c main_arg14) (rowVec (V c main_v51))

/-- What tile `t` writes back is the rows of `G2` under it. -/
theorem flushed2 (hpay : ∀ (x0 x1 : Vec Ideal S5000x128 .f32) (x2 x3 : Vec Ideal S128x47 .f32) (x4 : Vec Ideal S1x47 .f32), k2_pay1 (F := Ideal) x0 x1 x2 x3 x4 = Cert.Sage.plain x0 x1 x2 x3 (rowVec x4))
    (c : Dev nD) (t : Fin cfg2.N) :
    (dat2 V c).flushed 5 t = ((cfg2.win 5).blk t).view.read (Elt Ideal) (G2 V c) := by
  obtain ⟨e0a, e0b, e1a, e1b, e2a, e2b, e3a, e3b, e4a, e4b, e5a, e5b⟩ := idx_facts2 t
  show (cfg2.win 5).cut (grid2.coords t) ((dat2 V c).after 5 t) = _
  rw [after2_5]
  unfold out2_5
  rw [View.canon_unit_zero hz]
  simp only [View.ld_unit_zero (S := S5000x128) hz, View.ld_unit_zero (S := S128x47) hz, View.ld_unit_zero (S := S1x47) hz]
  rw [hpay]
  funext j
  obtain ⟨p, q, rfl⟩ : ∃ (p : Fin 5000) (q : Fin 47), j = ix2 p q := ⟨j 0, j 1, eq_ix2 j⟩
  rw [View.read_apply]
  have hrlt : t.val * 5000 + p.val < 50000 := by
    have ht : t.val < 10 := lt_of_lt_of_eq t.isLt N_2
    have hp := p.isLt; omega
  have hemb : ((cfg2.win 5).blk t).view.emb (ix2 p q) = (ix2 (⟨t.val * 5000 + p.val, hrlt⟩ : Fin 50000) q : S50000x47.Idx) := by
    funext a; apply Fin.ext
    match a with
    | ⟨0, _⟩ => show win2_5.index t (0 : Fin 2) * 5000 + 1 * p.val = t.val * 5000 + p.val; rw [e5a]; omega
    | ⟨1, _⟩ => show win2_5.index t (1 : Fin 2) * 47 + 1 * q.val = q.val; rw [e5b]; omega
  rw [hemb, iblk2_2_eq, iblk2_3_eq, iblk2_4_eq]
  exact Cert.Sage.plain_of_rows _ _ _ _ _ _ _ ⟨t.val * 5000 + p.val, hrlt⟩ p q
    (fun k => iblk2_0_row V c t p k _ rfl) (fun k => iblk2_1_row V c t p k _ rfl)

/-- An index of the output array lies under tile `t` iff its row does. -/
theorem mem_blk2 (t : Fin cfg2.N) (i : S50000x47.Idx) :
    i ∈ ((cfg2.win 5).blk t).view.set ↔ ∀ a : Fin 2, win2_5.index t a * S5000x47.size a ≤ (i a).val ∧ (i a).val < win2_5.index t a * S5000x47.size a + S5000x47.size a := by
  show i ∈ ((View.whole main_v52).slice (win2_5.rect t)).set ↔ _
  rw [View.set_slice_whole, Rect.mem_set_unit]
  exact Iff.rfl

/-- The output array after the ten write-backs. -/
theorem final2 (hpay : ∀ (x0 x1 : Vec Ideal S5000x128 .f32) (x2 x3 : Vec Ideal S128x47 .f32) (x4 : Vec Ideal S1x47 .f32), k2_pay1 (F := Ideal) x0 x1 x2 x3 x4 = Cert.Sage.plain x0 x1 x2 x3 (rowVec x4))
    (c : Dev nD) : (dat2 V c).arrAt 5 cfg2.N = G2 V c :=
  (dat2 V c).arrAt_eq_of_cover 5 (G2 V c) (fun t _ => flushed2 V hpay c t) fun i => by
    have hi0 : (i 0).val < 50000 := (i 0).isLt
    have hi1 : (i 1).val < 47 := (i 1).isLt
    have hN : cfg2.N = 10 := N_2
    let t : Fin cfg2.N := ⟨(i 0).val / 5000, by rw [hN]; omega⟩
    obtain ⟨e0a, e0b, e1a, e1b, e2a, e2b, e3a, e3b, e4a, e4b, e5a, e5b⟩ := idx_facts2 t
    refine ⟨t, flush2_5 t, ?_⟩
    rw [mem_blk2]
    intro a
    have ht : t.val = (i 0).val / 5000 := rfl
    match a with
    | ⟨0, _⟩ => show win2_5.index t (0 : Fin 2) * 5000 ≤ (i 0).val ∧ (i 0).val < win2_5.index t (0 : Fin 2) * 5000 + 5000; rw [e5a, ht]; omega
    | ⟨1, _⟩ => show win2_5.index t (1 : Fin 2) * 47 ≤ (i 1).val ∧ (i 1).val < win2_5.index t (1 : Fin 2) * 47 + 47; rw [e5b]; omega

end Cert.KernelIdeal.Tiles2

end
-- ==== Proof.HostChain.lean ====
/-
  The host operations of the idealized kernel program, read.  Before each tiled layer computation the program forms,
  on the host, the neighbour mean of the current node features: gather the source node's row along every edge, add
  the rows up at the edge's destination node, and divide each node's sum by its in-degree (at least one).  The
  in-degree column is formed once, before the first layer, and reused.  This module reads, at each of the three
  tiled computations' entries, what every operand array holds, as a term of the launch memory and of the previous
  tiled computation's output array; the neighbour mean stays one opaque function `neighK` of the features, the two
  edge-index arrays and the in-degree column.
-/
import proofs.«119647_j1709396984374_1_alg».proof.Proof.KernelIdealFrameP
import Idealize.ShloMosaic.Lib.StableHlo.Run
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen Cert.KernelIdeal.GenP

/-- The in-degree column: per node the number of edges that end there, at least one, as a [50000, 1] array. -/
def degK (dst : IVec S800000 32) : FVec Ideal S50000x1 .f32 :=
  broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32))) (broadcastInDim S50000 ![] bcast_S_S50000 (constant (F := Ideal) S_ .f32 0x3F800000#32)))

/-- The neighbour mean of the features `h` over the edges `src → dst`, divided by the in-degree column `d`. -/
def neighK (h : FVec Ideal S50000x128 .f32) (src dst : IVec S800000 32) (d : FVec Ideal S50000x1 .f32) : FVec Ideal S50000x128 .f32 :=
  Host.divf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 d)

variable (m : (ℓ : Loc nD τ sig) → Buf (Elt Ideal) ℓ) (ρ : Dev nD → PrngReg)

/-! ## At the first tiled computation's entry: the host operations before it, over the launch memory -/

theorem e1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem e1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem e1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem e1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem e1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem e1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem e1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem e1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem e1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem e1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem e1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem e1_arg11 (c : Dev nD) : W1 m ρ c (Proc.devRef .tc main_arg11) = m ((c : Thread nD τ).loc main_arg11) := by
  show StableHlo.after hostOps0 (W0 m ρ c) (Proc.devRef .tc main_arg11) = _
  after_results_simp <;> rfl
theorem e1_arg12 (c : Dev nD) : W1 m ρ c (Proc.devRef .tc main_arg12) = m ((c : Thread nD τ).loc main_arg12) := by
  show StableHlo.after hostOps0 (W0 m ρ c) (Proc.devRef .tc main_arg12) = _
  after_results_simp <;> rfl
theorem e1_arg13 (c : Dev nD) : W1 m ρ c (Proc.devRef .tc main_arg13) = m ((c : Thread nD τ).loc main_arg13) := by
  show StableHlo.after hostOps0 (W0 m ρ c) (Proc.devRef .tc main_arg13) = _
  after_results_simp <;> rfl
theorem e1_arg14 (c : Dev nD) : W1 m ρ c (Proc.devRef .tc main_arg14) = m ((c : Thread nD τ).loc main_arg14) := by
  show StableHlo.after hostOps0 (W0 m ρ c) (Proc.devRef .tc main_arg14) = _
  after_results_simp <;> rfl
theorem e1_arg15 (c : Dev nD) : W1 m ρ c (Proc.devRef .tc main_arg15) = m ((c : Thread nD τ).loc main_arg15) := by
  show StableHlo.after hostOps0 (W0 m ρ c) (Proc.devRef .tc main_arg15) = _
  after_results_simp <;> rfl
theorem e1_v6 (c : Dev nD) : W1 m ρ c (Proc.devRef .tc main_v6) = degK (m ((c : Thread nD τ).loc main_arg2)) := by
  show StableHlo.after hostOps0 (W0 m ρ c) (Proc.devRef .tc main_v6) = _
  after_results_simp <;> rfl
theorem e1_v18 (c : Dev nD) : W1 m ρ c (Proc.devRef .tc main_v18) = neighK (m ((c : Thread nD τ).loc main_arg0)) (m ((c : Thread nD τ).loc main_arg1)) (m ((c : Thread nD τ).loc main_arg2)) (degK (m ((c : Thread nD τ).loc main_arg2))) := by
  show StableHlo.after hostOps0 (W0 m ρ c) (Proc.devRef .tc main_v18) = _
  after_results_simp <;> rfl
theorem e1_v19 (c : Dev nD) : W1 m ρ c (Proc.devRef .tc main_v19) = (fun i => shapeCast S1x128 (m ((c : Thread nD τ).loc main_arg5)) shapeCasts_S128_S1x128 i) := by
  show StableHlo.after hostOps0 (W0 m ρ c) (Proc.devRef .tc main_v19) = _
  after_results_simp <;> rfl
theorem e1_v20 (c : Dev nD) : W1 m ρ c (Proc.devRef .tc main_v20) = (fun i => shapeCast S1x128 (m ((c : Thread nD τ).loc main_arg6)) shapeCasts_S128_S1x128 i) := by
  show StableHlo.after hostOps0 (W0 m ρ c) (Proc.devRef .tc main_v20) = _
  after_results_simp <;> rfl
theorem e1_v21 (c : Dev nD) : W1 m ρ c (Proc.devRef .tc main_v21) = (fun i => shapeCast S1x128 (m ((c : Thread nD τ).loc main_arg7)) shapeCasts_S128_S1x128 i) := by
  show StableHlo.after hostOps0 (W0 m ρ c) (Proc.devRef .tc main_v21) = _
  after_results_simp <;> rfl

/-! ## Buffers the first tiled computation does not touch keep their contents across it -/

theorem k2_arg1 (c : Dev nD) : W2 m ρ c (Proc.devRef .tc main_arg1) = W1 m ρ c (Proc.devRef .tc main_arg1) :=
  W2_of_ne m ρ c main_arg1 (by decide)
theorem k2_arg2 (c : Dev nD) : W2 m ρ c (Proc.devRef .tc main_arg2) = W1 m ρ c (Proc.devRef .tc main_arg2) :=
  W2_of_ne m ρ c main_arg2 (by decide)
theorem k2_v6 (c : Dev nD) : W2 m ρ c (Proc.devRef .tc main_v6) = W1 m ρ c (Proc.devRef .tc main_v6) :=
  W2_of_ne m ρ c main_v6 (by decide)
theorem k2_arg8 (c : Dev nD) : W2 m ρ c (Proc.devRef .tc main_arg8) = W1 m ρ c (Proc.devRef .tc main_arg8) :=
  W2_of_ne m ρ c main_arg8 (by decide)
theorem k2_arg9 (c : Dev nD) : W2 m ρ c (Proc.devRef .tc main_arg9) = W1 m ρ c (Proc.devRef .tc main_arg9) :=
  W2_of_ne m ρ c main_arg9 (by decide)
theorem k2_arg10 (c : Dev nD) : W2 m ρ c (Proc.devRef .tc main_arg10) = W1 m ρ c (Proc.devRef .tc main_arg10) :=
  W2_of_ne m ρ c main_arg10 (by decide)
theorem k2_arg11 (c : Dev nD) : W2 m ρ c (Proc.devRef .tc main_arg11) = W1 m ρ c (Proc.devRef .tc main_arg11) :=
  W2_of_ne m ρ c main_arg11 (by decide)
theorem k2_arg12 (c : Dev nD) : W2 m ρ c (Proc.devRef .tc main_arg12) = W1 m ρ c (Proc.devRef .tc main_arg12) :=
  W2_of_ne m ρ c main_arg12 (by decide)
theorem k2_arg13 (c : Dev nD) : W2 m ρ c (Proc.devRef .tc main_arg13) = W1 m ρ c (Proc.devRef .tc main_arg13) :=
  W2_of_ne m ρ c main_arg13 (by decide)
theorem k2_arg14 (c : Dev nD) : W2 m ρ c (Proc.devRef .tc main_arg14) = W1 m ρ c (Proc.devRef .tc main_arg14) :=
  W2_of_ne m ρ c main_arg14 (by decide)
theorem k2_arg15 (c : Dev nD) : W2 m ρ c (Proc.devRef .tc main_arg15) = W1 m ρ c (Proc.devRef .tc main_arg15) :=
  W2_of_ne m ρ c main_arg15 (by decide)

/-! ## At the second tiled computation's entry -/

theorem k3_arg1 (c : Dev nD) : W3 m ρ c (Proc.devRef .tc main_arg1) = W2 m ρ c (Proc.devRef .tc main_arg1) := by
  show StableHlo.after hostOps1 (W2 m ρ c) (Proc.devRef .tc main_arg1) = _
  after_results_simp <;> rfl
theorem k3_arg2 (c : Dev nD) : W3 m ρ c (Proc.devRef .tc main_arg2) = W2 m ρ c (Proc.devRef .tc main_arg2) := by
  show StableHlo.after hostOps1 (W2 m ρ c) (Proc.devRef .tc main_arg2) = _
  after_results_simp <;> rfl
theorem k3_v6 (c : Dev nD) : W3 m ρ c (Proc.devRef .tc main_v6) = W2 m ρ c (Proc.devRef .tc main_v6) := by
  show StableHlo.after hostOps1 (W2 m ρ c) (Proc.devRef .tc main_v6) = _
  after_results_simp <;> rfl
theorem k3_arg13 (c : Dev nD) : W3 m ρ c (Proc.devRef .tc main_arg13) = W2 m ρ c (Proc.devRef .tc main_arg13) := by
  show StableHlo.after hostOps1 (W2 m ρ c) (Proc.devRef .tc main_arg13) = _
  after_results_simp <;> rfl
theorem k3_arg14 (c : Dev nD) : W3 m ρ c (Proc.devRef .tc main_arg14) = W2 m ρ c (Proc.devRef .tc main_arg14) := by
  show StableHlo.after hostOps1 (W2 m ρ c) (Proc.devRef .tc main_arg14) = _
  after_results_simp <;> rfl
theorem k3_arg15 (c : Dev nD) : W3 m ρ c (Proc.devRef .tc main_arg15) = W2 m ρ c (Proc.devRef .tc main_arg15) := by
  show StableHlo.after hostOps1 (W2 m ρ c) (Proc.devRef .tc main_arg15) = _
  after_results_simp <;> rfl
theorem k3_arg8 (c : Dev nD) : W3 m ρ c (Proc.devRef .tc main_arg8) = W2 m ρ c (Proc.devRef .tc main_arg8) := by
  show StableHlo.after hostOps1 (W2 m ρ c) (Proc.devRef .tc main_arg8) = _
  after_results_simp <;> rfl
theorem k3_arg9 (c : Dev nD) : W3 m ρ c (Proc.devRef .tc main_arg9) = W2 m ρ c (Proc.devRef .tc main_arg9) := by
  show StableHlo.after hostOps1 (W2 m ρ c) (Proc.devRef .tc main_arg9) = _
  after_results_simp <;> rfl
theorem k3_v22 (c : Dev nD) : W3 m ρ c (Proc.devRef .tc main_v22) = W2 m ρ c (Proc.devRef .tc main_v22) := by
  show StableHlo.after hostOps1 (W2 m ρ c) (Proc.devRef .tc main_v22) = _
  after_results_simp <;> rfl
theorem e3_v34 (c : Dev nD) : W3 m ρ c (Proc.devRef .tc main_v34)
    = neighK (W2 m ρ c (Proc.devRef .tc main_v22)) (W2 m ρ c (Proc.devRef .tc main_arg1)) (W2 m ρ c (Proc.devRef .tc main_arg2)) (W2 m ρ c (Proc.devRef .tc main_v6)) := by
  show StableHlo.after hostOps1 (W2 m ρ c) (Proc.devRef .tc main_v34) = _
  after_results_simp <;> rfl
theorem e3_v35 (c : Dev nD) : W3 m ρ c (Proc.devRef .tc main_v35) = (fun i => shapeCast S1x128 (W2 m ρ c (Proc.devRef .tc main_arg10)) shapeCasts_S128_S1x128 i) := by
  show StableHlo.after hostOps1 (W2 m ρ c) (Proc.devRef .tc main_v35) = _
  after_results_simp <;> rfl
theorem e3_v36 (c : Dev nD) : W3 m ρ c (Proc.devRef .tc main_v36) = (fun i => shapeCast S1x128 (W2 m ρ c (Proc.devRef .tc main_arg11)) shapeCasts_S128_S1x128 i) := by
  show StableHlo.after hostOps1 (W2 m ρ c) (Proc.devRef .tc main_v36) = _
  after_results_simp <;> rfl
theorem e3_v37 (c : Dev nD) : W3 m ρ c (Proc.devRef .tc main_v37) = (fun i => shapeCast S1x128 (W2 m ρ c (Proc.devRef .tc main_arg12)) shapeCasts_S128_S1x128 i) := by
  show StableHlo.after hostOps1 (W2 m ρ c) (Proc.devRef .tc main_v37) = _
  after_results_simp <;> rfl

/-! ## Across the second tiled computation, and at the third one's entry -/

theorem k4_arg1 (c : Dev nD) : W4 m ρ c (Proc.devRef .tc main_arg1) = W3 m ρ c (Proc.devRef .tc main_arg1) :=
  W4_of_ne m ρ c main_arg1 (by decide)
theorem k4_arg2 (c : Dev nD) : W4 m ρ c (Proc.devRef .tc main_arg2) = W3 m ρ c (Proc.devRef .tc main_arg2) :=
  W4_of_ne m ρ c main_arg2 (by decide)
theorem k4_v6 (c : Dev nD) : W4 m ρ c (Proc.devRef .tc main_v6) = W3 m ρ c (Proc.devRef .tc main_v6) :=
  W4_of_ne m ρ c main_v6 (by decide)
theorem k4_arg13 (c : Dev nD) : W4 m ρ c (Proc.devRef .tc main_arg13) = W3 m ρ c (Proc.devRef .tc main_arg13) :=
  W4_of_ne m ρ c main_arg13 (by decide)
theorem k4_arg14 (c : Dev nD) : W4 m ρ c (Proc.devRef .tc main_arg14) = W3 m ρ c (Proc.devRef .tc main_arg14) :=
  W4_of_ne m ρ c main_arg14 (by decide)
theorem k4_arg15 (c : Dev nD) : W4 m ρ c (Proc.devRef .tc main_arg15) = W3 m ρ c (Proc.devRef .tc main_arg15) :=
  W4_of_ne m ρ c main_arg15 (by decide)
theorem k5_arg13 (c : Dev nD) : W5 m ρ c (Proc.devRef .tc main_arg13) = W4 m ρ c (Proc.devRef .tc main_arg13) := by
  show StableHlo.after hostOps2 (W4 m ρ c) (Proc.devRef .tc main_arg13) = _
  after_results_simp <;> rfl
theorem k5_arg14 (c : Dev nD) : W5 m ρ c (Proc.devRef .tc main_arg14) = W4 m ρ c (Proc.devRef .tc main_arg14) := by
  show StableHlo.after hostOps2 (W4 m ρ c) (Proc.devRef .tc main_arg14) = _
  after_results_simp <;> rfl
theorem k5_v38 (c : Dev nD) : W5 m ρ c (Proc.devRef .tc main_v38) = W4 m ρ c (Proc.devRef .tc main_v38) := by
  show StableHlo.after hostOps2 (W4 m ρ c) (Proc.devRef .tc main_v38) = _
  after_results_simp <;> rfl
theorem e5_v50 (c : Dev nD) : W5 m ρ c (Proc.devRef .tc main_v50)
    = neighK (W4 m ρ c (Proc.devRef .tc main_v38)) (W4 m ρ c (Proc.devRef .tc main_arg1)) (W4 m ρ c (Proc.devRef .tc main_arg2)) (W4 m ρ c (Proc.devRef .tc main_v6)) := by
  show StableHlo.after hostOps2 (W4 m ρ c) (Proc.devRef .tc main_v50) = _
  after_results_simp <;> rfl
theorem e5_v51 (c : Dev nD) : W5 m ρ c (Proc.devRef .tc main_v51) = (fun i => shapeCast S1x47 (W4 m ρ c (Proc.devRef .tc main_arg15)) shapeCasts_S47_S1x47 i) := by
  show StableHlo.after hostOps2 (W4 m ρ c) (Proc.devRef .tc main_v51) = _
  after_results_simp <;> rfl

end Cert.KernelIdeal.Host

end
-- ==== Proof.Pay0.lean ====
/-
  A hidden layer's arithmetic read at one entry.

  The layer takes a block of node rows `h` and the matching block of neighbour means `hn` (5000 rows of 128
  numbers each), two 128 × 128 weight matrices, a bias row, a scale row and a shift row.  Its linear part is
  `y = h · Wself + hn · Wneigh + b`; over the extended reals the narrowing of the operands to a shorter format is
  the identity and a matrix product accumulated into zero is the sum over the 128 contracted positions.  Each row
  of `y` is then normalised: with `μ` the row's sum divided by 128 and `σ²` the sum of the squared deviations from
  `μ` divided by 128, the entry `y` becomes `max ((y - μ) · (σ² + ε)^(-1/2) · γ + β) 0`.  The row statistics are
  computed as columns (one number per row) and repeated along the row; read at node row `p` and feature `q` this
  is the specification's `normRelu` of row `p` of the linear part, at `q`.
-/
import proofs.«119647_j1709396984374_1_alg».proof.Proof.Gen.KernelIdeal.Skeleton
import proofs.«119647_j1709396984374_1_alg».proof.Proof.Spec
import Idealize.ShloMosaic.Lib.ValueLayout
import Idealize.ShloMosaic.PureOps.Ideal.Laws

noncomputable section

namespace Cert.Sage.Kernel

open Idealize.ShloMosaic Idealize.ShloMosaic.ValueIdx Cert.KernelIdeal Cert.KernelIdeal.Gen

/-! ## The product's operand indices -/

/-- The left operand is read on the output's row … -/
private theorem lhs128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … at the contracted position; -/
private theorem lhs128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- the right operand is read on the contracted position's row … -/
private theorem rhs128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- … at the output's column. -/
private theorem rhs128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 × 128 by 128 × 128 product accumulated into zero, at `(p, q)`: the sum over the 128 contracted
    positions `k` of the left operand at `(p, k)` times the right operand at `(k, q)`. -/
private theorem matmul128_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs128_0 _ _
      | ⟨1, _⟩ => exact (lhs128_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (rhs128_0 _ _).trans hk
      | ⟨1, _⟩ => exact rhs128_1 _ _)
  rw [el, er]

/-! ## Row sums, columns, and rows read at an entry -/

/-- The sum along each row, at row `p`: the sum of that row's 128 entries. -/
private theorem rowsum_apply (v : FVec Ideal S5000x128 .f32) (h : S5000x128.Reduces [1] S5000) (hφ : FKind.Formats .f32)
    (hacc : (0x00000000#32 : BitVec 32) = 0x00000000#32) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext ax
  match ax with
  | ⟨0, _⟩ => rfl
  | ⟨1, _⟩ => rfl

/-- A list of 5000 numbers laid out as a column reads, at `(p, u)`, the list at `p`. -/
private theorem cast_col_apply {α : Type} (x : S5000.Idx → α) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column repeated along the rows reads, at `(p, q)`, the column at `p`. -/
private theorem bcast_col_apply {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ =>
    show (0 : Nat) = if (1 : Nat) = 1 then 0 else q.val
    rw [if_pos rfl]

/-- A row of 128 numbers (kept in its shape) repeated on every node row reads, at `(p, q)`, the row at `q`. -/
private theorem rowvec_apply (z : Vec Ideal S1x128 .f32) (h1 : S1x128.ShapeCasts S1x128) (h2 : S1x128.Broadcasts S5000x128)
    (p : Fin 5000) (q : Fin 128) :
    broadcastTo S5000x128 (shapeCast S1x128 z h1) h2 (ix2 p q) = z (ix2 (0 : Fin 1) q) :=
  (broadcastTo_1b_ab_apply _ h2 p q).trans (congrFun (shapeCast_self z h1) _)

/-! ## The layer's parts -/

/-- The linear part: the two products into zero, added, plus the bias row repeated on every node row. -/
private def lin (x0 x1 : Vec Ideal S5000x128 .f32) (x2 x3 : Vec Ideal S128x128 .f32) (x4 : Vec Ideal S1x128 .f32) :
    FVec Ideal S5000x128 .f32 :=
  addf
    (addf
      (matmul dot_S5000x128_S128x128_S5000x128_1_0_0_1_n_n none (truncf .bf16 x0 bitsLt_bf16_f32) (truncf .bf16 x2 bitsLt_bf16_f32)
        (constant (F := Ideal) S5000x128 .f32 0x00000000#32))
      (matmul dot_S5000x128_S128x128_S5000x128_1_0_0_1_n_n none
        (truncf .bf16 (shapeCast S5000x128 x1 shapeCasts_S5000x128_S5000x128) bitsLt_bf16_f32) (truncf .bf16 x3 bitsLt_bf16_f32)
        (constant (F := Ideal) S5000x128 .f32 0x00000000#32)))
    (broadcastTo S5000x128 (shapeCast S1x128 x4 shapeCasts_S1x128_S1x128) broadcasts_S1x128_S5000x128)

/-- A block's row means as a column: each row's sum divided by 128. -/
private def meanCol (v : FVec Ideal S5000x128 .f32) : FVec Ideal S5000x1 .f32 :=
  divf (shapeCast S5000x1 (multiReduction (F := Ideal) .add [1] S5000 v 0x00000000#32 reduces_S5000x128_S5000 (.inl rfl) rfl)
      shapeCasts_S5000_S5000x1)
    (broadcast S5000x1 (Scalar.ofBits .f32 0x43000000#32 : Ideal .f32))

/-- A column repeated along the rows. -/
private def spread (c : FVec Ideal S5000x1 .f32) : FVec Ideal S5000x128 .f32 :=
  broadcastTo S5000x128 c broadcasts_S5000x1_S5000x128

/-- A block's deviations from its row means. -/
private def dev (y : FVec Ideal S5000x128 .f32) : FVec Ideal S5000x128 .f32 := subf y (spread (meanCol y))

/-- Normalisation and scale of the linear part `y`: the deviation times the inverse root of the row's mean squared
    deviation plus `ε`, times the scale row. -/
private def norm (y : FVec Ideal S5000x128 .f32) (g : Vec Ideal S1x128 .f32) : FVec Ideal S5000x128 .f32 :=
  mulf (mulf (dev y)
      (spread (rsqrt (addf (meanCol (mulf (dev y) (dev y))) (broadcast S5000x1 (Scalar.ofBits .f32 0x3727C5AC#32 : Ideal .f32))))))
    (broadcastTo S5000x128 (shapeCast S1x128 g shapeCasts_S1x128_S1x128) broadcasts_S1x128_S5000x128)

/-- The scaled value is the normalisation of the linear part. -/
private theorem pay2_split (x0 x1 : Vec Ideal S5000x128 .f32) (x2 x3 : Vec Ideal S128x128 .f32) (x4 x5 : Vec Ideal S1x128 .f32) :
    k0_pay2 (F := Ideal) x0 x1 x2 x3 x4 x5 = norm (lin x0 x1 x2 x3 x4) x5 := rfl

/-- The linear part at `(p, q)` is the specification's `pre` of row `p`, at `q`. -/
private theorem lin_apply (x0 x1 : Vec Ideal S5000x128 .f32) (x2 x3 : Vec Ideal S128x128 .f32) (x4 : Vec Ideal S1x128 .f32)
    (p : Fin 5000) (q : Fin 128) :
    lin x0 x1 x2 x3 x4 (ix2 p q) = pre (row x0 p) (row x1 p) x2 x3 (fun c => x4 (ix2 (0 : Fin 1) c)) q := by
  unfold lin
  rw [shapeCast_self x1]
  refine (addf_apply _ _ (ix2 p q)).trans ?_
  refine congrArg₂ (· + ·) ((addf_apply _ _ (ix2 p q)).trans (congrArg₂ (· + ·) ?_ ?_)) ?_
  · exact matmul128_apply _ _ p q
  · exact matmul128_apply _ _ p q
  · exact rowvec_apply x4 _ _ p q

/-- The row means column at `(p, u)` is the mean of row `p`. -/
private theorem meanCol_apply (v : FVec Ideal S5000x128 .f32) (p : Fin 5000) (u : Fin 1) :
    meanCol v (ix2 p u) = mean (fun k => v (ix2 p k)) := by
  unfold meanCol mean
  refine (divf_apply _ _ (ix2 p u)).trans ?_
  exact congrArg₂ Ideal.div ((cast_col_apply _ _ p u).trans (rowsum_apply v _ _ _ p)) rfl

/-- A repeated column at `(p, q)` is the column at row `p`. -/
private theorem spread_apply (c : FVec Ideal S5000x1 .f32) (p : Fin 5000) (q : Fin 128) :
    spread c (ix2 p q) = c (ix2 p (0 : Fin 1)) := bcast_col_apply c _ p q

/-- The inverse root of a column, entry by entry. -/
private theorem rsqrt_col_apply (w : FVec Ideal S5000x1 .f32) (i : S5000x1.Idx) : rsqrt w i = Ideal.rsqrt (w i) := rfl

/-- The deviations at `(p, k)`, for `x` row `p` of the block. -/
private theorem dev_apply (y : FVec Ideal S5000x128 .f32) (p : Fin 5000) (x : Fin 128 → EReal) (hx : ∀ k, y (ix2 p k) = x k)
    (k : Fin 128) : dev y (ix2 p k) = x k - mean x := by
  have hrow : (fun k => y (ix2 p k)) = x := funext hx
  unfold dev
  refine (subf_apply _ _ (ix2 p k)).trans (congrArg₂ (· - ·) (hx k) ?_)
  exact (spread_apply _ p k).trans ((meanCol_apply y p 0).trans (congrArg mean hrow))

/-- The normalised and scaled value at `(p, q)`, for `x` row `p` of the linear part. -/
private theorem norm_apply (y : FVec Ideal S5000x128 .f32) (g : Vec Ideal S1x128 .f32) (p : Fin 5000) (q : Fin 128)
    (x : Fin 128 → EReal) (hx : ∀ k, y (ix2 p k) = x k) :
    norm y g (ix2 p q)
      = ((x q - mean x) * Ideal.rsqrt (mean (fun j => (x j - mean x) * (x j - mean x)) + Ideal.ofBits .f32 0x3727C5AC#32))
          * g (ix2 (0 : Fin 1) q) := by
  have hsq : (fun k => mulf (dev y) (dev y) (ix2 p k)) = fun j => (x j - mean x) * (x j - mean x) :=
    funext fun k => (mulf_apply _ _ (ix2 p k)).trans (congrArg₂ (· * ·) (dev_apply y p x hx k) (dev_apply y p x hx k))
  unfold norm
  refine (mulf_apply _ _ (ix2 p q)).trans (congrArg₂ (· * ·) ?_ (rowvec_apply g _ _ p q))
  refine (mulf_apply _ _ (ix2 p q)).trans (congrArg₂ (· * ·) (dev_apply y p x hx q) ?_)
  refine (spread_apply _ p q).trans ((rsqrt_col_apply _ _).trans (congrArg Ideal.rsqrt ?_))
  refine (addf_apply _ _ (ix2 p (0 : Fin 1))).trans (congrArg₂ (· + ·) ?_ rfl)
  exact (meanCol_apply _ p 0).trans (congrArg mean hsq)

/-- The shift and the positive part at `(p, q)`. -/
private theorem act_apply (v : FVec Ideal S5000x128 .f32) (be : Vec Ideal S1x128 .f32) (p : Fin 5000) (q : Fin 128) :
    k0_pay1 (F := Ideal) v be (ix2 p q) = max (v (ix2 p q) + be (ix2 (0 : Fin 1) q)) (Ideal.ofBits .f32 0x00000000#32) := by
  unfold k0_pay1
  refine (maximumf_apply _ _ (ix2 p q)).trans (congrArg₂ max ?_ rfl)
  exact (addf_apply _ _ (ix2 p q)).trans (congrArg₂ (· + ·) rfl (rowvec_apply be _ _ p q))

/-! ## The layer -/

/-- The hidden layer's stored value is the specification's hidden layer, entry by entry. -/
theorem pay0_eq (x0 x1 : Vec Ideal S5000x128 .f32) (x2 x3 : Vec Ideal S128x128 .f32) (x4 x5 x6 : Vec Ideal S1x128 .f32) :
    k0_pay1 (F := Ideal) (k0_pay2 (F := Ideal) x0 x1 x2 x3 x4 x5) x6
      = Cert.Sage.hidden x0 x1 x2 x3 (fun q => x4 (ix2 (0 : Fin 1) q)) (fun q => x5 (ix2 (0 : Fin 1) q))
          (fun q => x6 (ix2 (0 : Fin 1) q)) := by
  funext i
  obtain ⟨p, q, rfl⟩ : ∃ (p : Fin 5000) (q : Fin 128), i = ix2 p q := ⟨i 0, i 1, eq_ix2 i⟩
  rw [pay2_split]
  refine (act_apply _ x6 p q).trans ?_
  refine congrArg₂ max (congrArg₂ (· + ·) ?_ rfl) rfl
  exact norm_apply _ x5 p q _ (fun k => lin_apply x0 x1 x2 x3 x4 p k)

end Cert.Sage.Kernel

end
-- ==== Proof.Pay1.lean ====
/-
  A hidden layer's arithmetic read at one entry.

  The layer takes a block of node rows `h` and the matching block of neighbour means `hn` (5000 rows of 128
  numbers each), two 128 × 128 weight matrices, a bias row, a scale row and a shift row.  Its linear part is
  `y = h · Wself + hn · Wneigh + b`; over the extended reals the narrowing of the operands to a shorter format is
  the identity and a matrix product accumulated into zero is the sum over the 128 contracted positions.  Each row
  of `y` is then normalised: with `μ` the row's sum divided by 128 and `σ²` the sum of the squared deviations from
  `μ` divided by 128, the entry `y` becomes `max ((y - μ) · (σ² + ε)^(-1/2) · γ + β) 0`.  The row statistics are
  computed as columns (one number per row) and repeated along the row; read at node row `p` and feature `q` this
  is the specification's `normRelu` of row `p` of the linear part, at `q`.
-/
import proofs.«119647_j1709396984374_1_alg».proof.Proof.Gen.KernelIdeal.Skeleton
import proofs.«119647_j1709396984374_1_alg».proof.Proof.Spec
import Idealize.ShloMosaic.Lib.ValueLayout
import Idealize.ShloMosaic.PureOps.Ideal.Laws

noncomputable section

namespace Cert.Sage.Kernel

open Idealize.ShloMosaic Idealize.ShloMosaic.ValueIdx Cert.KernelIdeal Cert.KernelIdeal.Gen

/-! ## The product's operand indices -/

/-- The left operand is read on the output's row … -/
private theorem lhs128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … at the contracted position; -/
private theorem lhs128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- the right operand is read on the contracted position's row … -/
private theorem rhs128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- … at the output's column. -/
private theorem rhs128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 × 128 by 128 × 128 product accumulated into zero, at `(p, q)`: the sum over the 128 contracted
    positions `k` of the left operand at `(p, k)` times the right operand at `(k, q)`. -/
private theorem matmul128_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs128_0 _ _
      | ⟨1, _⟩ => exact (lhs128_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (rhs128_0 _ _).trans hk
      | ⟨1, _⟩ => exact rhs128_1 _ _)
  rw [el, er]

/-! ## Row sums, columns, and rows read at an entry -/

/-- The sum along each row, at row `p`: the sum of that row's 128 entries. -/
private theorem rowsum_apply (v : FVec Ideal S5000x128 .f32) (h : S5000x128.Reduces [1] S5000) (hφ : FKind.Formats .f32)
    (hacc : (0x00000000#32 : BitVec 32) = 0x00000000#32) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext ax
  match ax with
  | ⟨0, _⟩ => rfl
  | ⟨1, _⟩ => rfl

/-- A list of 5000 numbers laid out as a column reads, at `(p, u)`, the list at `p`. -/
private theorem cast_col_apply {α : Type} (x : S5000.Idx → α) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column repeated along the rows reads, at `(p, q)`, the column at `p`. -/
private theorem bcast_col_apply {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ =>
    show (0 : Nat) = if (1 : Nat) = 1 then 0 else q.val
    rw [if_pos rfl]

/-- A row of 128 numbers (kept in its shape) repeated on every node row reads, at `(p, q)`, the row at `q`. -/
private theorem rowvec_apply (z : Vec Ideal S1x128 .f32) (h1 : S1x128.ShapeCasts S1x128) (h2 : S1x128.Broadcasts S5000x128)
    (p : Fin 5000) (q : Fin 128) :
    broadcastTo S5000x128 (shapeCast S1x128 z h1) h2 (ix2 p q) = z (ix2 (0 : Fin 1) q) :=
  (broadcastTo_1b_ab_apply _ h2 p q).trans (congrFun (shapeCast_self z h1) _)

/-! ## The layer's parts -/

/-- The linear part: the two products into zero, added, plus the bias row repeated on every node row. -/
private def lin (x0 x1 : Vec Ideal S5000x128 .f32) (x2 x3 : Vec Ideal S128x128 .f32) (x4 : Vec Ideal S1x128 .f32) :
    FVec Ideal S5000x128 .f32 :=
  addf
    (addf
      (matmul dot_S5000x128_S128x128_S5000x128_1_0_0_1_n_n none
        (truncf .bf16 (shapeCast S5000x128 x0 shapeCasts_S5000x128_S5000x128) bitsLt_bf16_f32) (truncf .bf16 x2 bitsLt_bf16_f32)
        (constant (F := Ideal) S5000x128 .f32 0x00000000#32))
      (matmul dot_S5000x128_S128x128_S5000x128_1_0_0_1_n_n none
        (truncf .bf16 (shapeCast S5000x128 x1 shapeCasts_S5000x128_S5000x128) bitsLt_bf16_f32) (truncf .bf16 x3 bitsLt_bf16_f32)
        (constant (F := Ideal) S5000x128 .f32 0x00000000#32)))
    (broadcastTo S5000x128 (shapeCast S1x128 x4 shapeCasts_S1x128_S1x128) broadcasts_S1x128_S5000x128)

/-- A block's row means as a column: each row's sum divided by 128. -/
private def meanCol (v : FVec Ideal S5000x128 .f32) : FVec Ideal S5000x1 .f32 :=
  divf (shapeCast S5000x1 (multiReduction (F := Ideal) .add [1] S5000 v 0x00000000#32 reduces_S5000x128_S5000 (.inl rfl) rfl)
      shapeCasts_S5000_S5000x1)
    (broadcast S5000x1 (Scalar.ofBits .f32 0x43000000#32 : Ideal .f32))

/-- A column repeated along the rows. -/
private def spread (c : FVec Ideal S5000x1 .f32) : FVec Ideal S5000x128 .f32 :=
  broadcastTo S5000x128 c broadcasts_S5000x1_S5000x128

/-- A block's deviations from its row means. -/
private def dev (y : FVec Ideal S5000x128 .f32) : FVec Ideal S5000x128 .f32 := subf y (spread (meanCol y))

/-- Normalisation and scale of the linear part `y`: the deviation times the inverse root of the row's mean squared
    deviation plus `ε`, times the scale row. -/
private def norm (y : FVec Ideal S5000x128 .f32) (g : Vec Ideal S1x128 .f32) : FVec Ideal S5000x128 .f32 :=
  mulf (mulf (dev y)
      (spread (rsqrt (addf (meanCol (mulf (dev y) (dev y))) (broadcast S5000x1 (Scalar.ofBits .f32 0x3727C5AC#32 : Ideal .f32))))))
    (broadcastTo S5000x128 (shapeCast S1x128 g shapeCasts_S1x128_S1x128) broadcasts_S1x128_S5000x128)

/-- The scaled value is the normalisation of the linear part. -/
private theorem pay2_split (x0 x1 : Vec Ideal S5000x128 .f32) (x2 x3 : Vec Ideal S128x128 .f32) (x4 x5 : Vec Ideal S1x128 .f32) :
    k1_pay2 (F := Ideal) x0 x1 x2 x3 x4 x5 = norm (lin x0 x1 x2 x3 x4) x5 := rfl

/-- The linear part at `(p, q)` is the specification's `pre` of row `p`, at `q`. -/
private theorem lin_apply (x0 x1 : Vec Ideal S5000x128 .f32) (x2 x3 : Vec Ideal S128x128 .f32) (x4 : Vec Ideal S1x128 .f32)
    (p : Fin 5000) (q : Fin 128) :
    lin x0 x1 x2 x3 x4 (ix2 p q) = pre (row x0 p) (row x1 p) x2 x3 (fun c => x4 (ix2 (0 : Fin 1) c)) q := by
  unfold lin
  rw [shapeCast_self x0, shapeCast_self x1]
  refine (addf_apply _ _ (ix2 p q)).trans ?_
  refine congrArg₂ (· + ·) ((addf_apply _ _ (ix2 p q)).trans (congrArg₂ (· + ·) ?_ ?_)) ?_
  · exact matmul128_apply _ _ p q
  · exact matmul128_apply _ _ p q
  · exact rowvec_apply x4 _ _ p q

/-- The row means column at `(p, u)` is the mean of row `p`. -/
private theorem meanCol_apply (v : FVec Ideal S5000x128 .f32) (p : Fin 5000) (u : Fin 1) :
    meanCol v (ix2 p u) = mean (fun k => v (ix2 p k)) := by
  unfold meanCol mean
  refine (divf_apply _ _ (ix2 p u)).trans ?_
  exact congrArg₂ Ideal.div ((cast_col_apply _ _ p u).trans (rowsum_apply v _ _ _ p)) rfl

/-- A repeated column at `(p, q)` is the column at row `p`. -/
private theorem spread_apply (c : FVec Ideal S5000x1 .f32) (p : Fin 5000) (q : Fin 128) :
    spread c (ix2 p q) = c (ix2 p (0 : Fin 1)) := bcast_col_apply c _ p q

/-- The inverse root of a column, entry by entry. -/
private theorem rsqrt_col_apply (w : FVec Ideal S5000x1 .f32) (i : S5000x1.Idx) : rsqrt w i = Ideal.rsqrt (w i) := rfl

/-- The deviations at `(p, k)`, for `x` row `p` of the block. -/
private theorem dev_apply (y : FVec Ideal S5000x128 .f32) (p : Fin 5000) (x : Fin 128 → EReal) (hx : ∀ k, y (ix2 p k) = x k)
    (k : Fin 128) : dev y (ix2 p k) = x k - mean x := by
  have hrow : (fun k => y (ix2 p k)) = x := funext hx
  unfold dev
  refine (subf_apply _ _ (ix2 p k)).trans (congrArg₂ (· - ·) (hx k) ?_)
  exact (spread_apply _ p k).trans ((meanCol_apply y p 0).trans (congrArg mean hrow))

/-- The normalised and scaled value at `(p, q)`, for `x` row `p` of the linear part. -/
private theorem norm_apply (y : FVec Ideal S5000x128 .f32) (g : Vec Ideal S1x128 .f32) (p : Fin 5000) (q : Fin 128)
    (x : Fin 128 → EReal) (hx : ∀ k, y (ix2 p k) = x k) :
    norm y g (ix2 p q)
      = ((x q - mean x) * Ideal.rsqrt (mean (fun j => (x j - mean x) * (x j - mean x)) + Ideal.ofBits .f32 0x3727C5AC#32))
          * g (ix2 (0 : Fin 1) q) := by
  have hsq : (fun k => mulf (dev y) (dev y) (ix2 p k)) = fun j => (x j - mean x) * (x j - mean x) :=
    funext fun k => (mulf_apply _ _ (ix2 p k)).trans (congrArg₂ (· * ·) (dev_apply y p x hx k) (dev_apply y p x hx k))
  unfold norm
  refine (mulf_apply _ _ (ix2 p q)).trans (congrArg₂ (· * ·) ?_ (rowvec_apply g _ _ p q))
  refine (mulf_apply _ _ (ix2 p q)).trans (congrArg₂ (· * ·) (dev_apply y p x hx q) ?_)
  refine (spread_apply _ p q).trans ((rsqrt_col_apply _ _).trans (congrArg Ideal.rsqrt ?_))
  refine (addf_apply _ _ (ix2 p (0 : Fin 1))).trans (congrArg₂ (· + ·) ?_ rfl)
  exact (meanCol_apply _ p 0).trans (congrArg mean hsq)

/-- The shift and the positive part at `(p, q)`. -/
private theorem act_apply (v : FVec Ideal S5000x128 .f32) (be : Vec Ideal S1x128 .f32) (p : Fin 5000) (q : Fin 128) :
    k1_pay1 (F := Ideal) v be (ix2 p q) = max (v (ix2 p q) + be (ix2 (0 : Fin 1) q)) (Ideal.ofBits .f32 0x00000000#32) := by
  unfold k1_pay1
  refine (maximumf_apply _ _ (ix2 p q)).trans (congrArg₂ max ?_ rfl)
  exact (addf_apply _ _ (ix2 p q)).trans (congrArg₂ (· + ·) rfl (rowvec_apply be _ _ p q))

/-! ## The layer -/

/-- The hidden layer's stored value is the specification's hidden layer, entry by entry. -/
theorem pay1_eq (x0 x1 : Vec Ideal S5000x128 .f32) (x2 x3 : Vec Ideal S128x128 .f32) (x4 x5 x6 : Vec Ideal S1x128 .f32) :
    k1_pay1 (F := Ideal) (k1_pay2 (F := Ideal) x0 x1 x2 x3 x4 x5) x6
      = Cert.Sage.hidden x0 x1 x2 x3 (fun q => x4 (ix2 (0 : Fin 1) q)) (fun q => x5 (ix2 (0 : Fin 1) q))
          (fun q => x6 (ix2 (0 : Fin 1) q)) := by
  funext i
  obtain ⟨p, q, rfl⟩ : ∃ (p : Fin 5000) (q : Fin 128), i = ix2 p q := ⟨i 0, i 1, eq_ix2 i⟩
  rw [pay2_split]
  refine (act_apply _ x6 p q).trans ?_
  refine congrArg₂ max (congrArg₂ (· + ·) ?_ rfl) rfl
  exact norm_apply _ x5 p q _ (fun k => lin_apply x0 x1 x2 x3 x4 p k)

end Cert.Sage.Kernel

end
-- ==== Proof.Pay2.lean ====
/-
  The output layer's arithmetic read at one entry.

  The layer takes a block of node rows `h` and the matching block of neighbour means `hn` (5000 rows of 128
  numbers each), two 128 × 47 weight matrices and a bias row, and produces `h · Wself + hn · Wneigh + b`.
  Over the extended reals the narrowing of the operands to a shorter format is the identity, a matrix product
  accumulated into zero is the sum over the 128 contracted positions, and the bias row is repeated on every
  node row; so the entry at node row `p` and class `q` is the specification's `pre` at `q` of row `p`.
-/
import proofs.«119647_j1709396984374_1_alg».proof.Proof.Gen.KernelIdeal.Skeleton
import proofs.«119647_j1709396984374_1_alg».proof.Proof.Spec
import Idealize.ShloMosaic.Lib.ValueLayout
import Idealize.ShloMosaic.PureOps.Ideal.Laws

noncomputable section

namespace Cert.Sage.Kernel

open Idealize.ShloMosaic Idealize.ShloMosaic.ValueIdx Cert.KernelIdeal Cert.KernelIdeal.Gen

/-! ## The product's operand indices -/

/-- The left operand is read on the output's row … -/
private theorem lhs47_0 (i : S5000x47.Idx) (c : dot_S5000x128_S128x47_S5000x47_1_0_0_1_n_n.contr.Idx) :
    (dot_S5000x128_S128x47_S5000x47_1_0_0_1_n_n.lhsIdx i c 0).val = (i 0).val := by
  unfold DotDims.lhsIdx
  rw [dif_neg (show ¬(0 : Fin S5000x128.rank) ∈ dot_S5000x128_S128x47_S5000x47_1_0_0_1_n_n.lhsBatch by decide),
    dif_pos (show (0 : Fin S5000x128.rank) ∈ dot_S5000x128_S128x47_S5000x47_1_0_0_1_n_n.lhsNonContracting by decide)]
  rfl
/-- … at the contracted position; -/
private theorem lhs47_1 (i : S5000x47.Idx) (c : dot_S5000x128_S128x47_S5000x47_1_0_0_1_n_n.contr.Idx) :
    (dot_S5000x128_S128x47_S5000x47_1_0_0_1_n_n.lhsIdx i c 1).val = (c ⟨0, by decide⟩).val :=
  dot_S5000x128_S128x47_S5000x47_1_0_0_1_n_n.lhsIdx_val_of_single rfl i c
/-- the right operand is read on the contracted position's row … -/
private theorem rhs47_0 (i : S5000x47.Idx) (c : dot_S5000x128_S128x47_S5000x47_1_0_0_1_n_n.contr.Idx) :
    (dot_S5000x128_S128x47_S5000x47_1_0_0_1_n_n.rhsIdx i c 0).val = (c ⟨0, by decide⟩).val :=
  dot_S5000x128_S128x47_S5000x47_1_0_0_1_n_n.rhsIdx_val_of_single rfl i c
/-- … at the output's column. -/
private theorem rhs47_1 (i : S5000x47.Idx) (c : dot_S5000x128_S128x47_S5000x47_1_0_0_1_n_n.contr.Idx) :
    (dot_S5000x128_S128x47_S5000x47_1_0_0_1_n_n.rhsIdx i c 1).val = (i 1).val := by
  unfold DotDims.rhsIdx
  rw [dif_neg (show ¬(1 : Fin S128x47.rank) ∈ dot_S5000x128_S128x47_S5000x47_1_0_0_1_n_n.rhsBatch by decide),
    dif_pos (show (1 : Fin S128x47.rank) ∈ dot_S5000x128_S128x47_S5000x47_1_0_0_1_n_n.rhsNonContracting by decide)]
  rfl

/-- A 5000 × 128 by 128 × 47 product accumulated into zero, at `(p, q)`: the sum over the 128 contracted positions
    `k` of the left operand at `(p, k)` times the right operand at `(k, q)`. -/
private theorem matmul47_apply (a : FVec Ideal S5000x128 .bf16) (w : FVec Ideal S128x47 .bf16) (p : Fin 5000) (q : Fin 47) :
    matmul dot_S5000x128_S128x47_S5000x47_1_0_0_1_n_n none a w (constant (F := Ideal) S5000x47 .f32 0x00000000#32) (ix2 p q)
      = ∑ k : Fin 128, a (ix2 p k) * w (ix2 k q) := by
  refine (Ideal.matmul_constant_zero_apply dot_S5000x128_S128x47_S5000x47_1_0_0_1_n_n none a w (ix2 p q)).trans ?_
  rw [← Equiv.sum_comp (contrEquiv1 dot_S5000x128_S128x47_S5000x47_1_0_0_1_n_n 128 rfl rfl).symm]
  refine Finset.sum_congr rfl fun k _ => ?_
  have hk := contrEquiv1_symm_val dot_S5000x128_S128x47_S5000x47_1_0_0_1_n_n 128 rfl rfl k
  have el : dot_S5000x128_S128x47_S5000x47_1_0_0_1_n_n.lhsIdx (ix2 p q)
      ((contrEquiv1 dot_S5000x128_S128x47_S5000x47_1_0_0_1_n_n 128 rfl rfl).symm k) = ix2 p k :=
    funext fun ax => Fin.ext (by
      match ax with
      | ⟨0, _⟩ => exact lhs47_0 _ _
      | ⟨1, _⟩ => exact (lhs47_1 _ _).trans hk)
  have er : dot_S5000x128_S128x47_S5000x47_1_0_0_1_n_n.rhsIdx (ix2 p q)
      ((contrEquiv1 dot_S5000x128_S128x47_S5000x47_1_0_0_1_n_n 128 rfl rfl).symm k) = ix2 k q :=
    funext fun ax => Fin.ext (by
      match ax with
      | ⟨0, _⟩ => exact (rhs47_0 _ _).trans hk
      | ⟨1, _⟩ => exact rhs47_1 _ _)
  rw [el, er]

/-! ## The layer -/

/-- The output layer's stored value is the specification's linear layer, entry by entry. -/
theorem pay2_eq (x0 x1 : Vec Ideal S5000x128 .f32) (x2 x3 : Vec Ideal S128x47 .f32) (x4 : Vec Ideal S1x47 .f32) :
    k2_pay1 (F := Ideal) x0 x1 x2 x3 x4
      = Cert.Sage.plain x0 x1 x2 x3 (fun q => x4 (ix2 (0 : Fin 1) q)) := by
  funext i
  obtain ⟨p, q, rfl⟩ : ∃ (p : Fin 5000) (q : Fin 47), i = ix2 p q := ⟨i 0, i 1, eq_ix2 i⟩
  unfold k2_pay1
  -- the two operand casts and the bias cast keep the shape
  rw [shapeCast_self x0, shapeCast_self x1, shapeCast_self x4]
  -- the sum of the two products plus the repeated bias row, at (p, q)
  refine (addf_apply _ _ (ix2 p q)).trans ?_
  refine congrArg₂ (· + ·) ((addf_apply _ _ (ix2 p q)).trans (congrArg₂ (· + ·) ?_ ?_)) ?_
  · exact matmul47_apply _ _ p q
  · exact matmul47_apply _ _ p q
  · exact broadcastTo_1b_ab_apply x4 _ p q

end Cert.Sage.Kernel

end
-- ==== Proof.KernelWhole.lean ====
/-
  The idealized kernel program's result as ONE function of its arguments.  Layer by layer: the first tiled computation's
  output array is the hidden layer of the node features and their neighbour mean; the second's is the hidden layer of that
  array and ITS neighbour mean; the third's, the program's result, is the output layer of the second's array and its
  neighbour mean.  Each step joins three facts: what the operand arrays hold when the tiled computation is entered (the
  host operations read), that the tiles' write-backs assemble the layer's whole output array, and that the tile body
  computes the layer on its rows.
-/
import proofs.«119647_j1709396984374_1_alg».proof.Proof.KernelRun
import proofs.«119647_j1709396984374_1_alg».proof.Proof.Tiles0
import proofs.«119647_j1709396984374_1_alg».proof.Proof.Tiles1
import proofs.«119647_j1709396984374_1_alg».proof.Proof.Tiles2
import proofs.«119647_j1709396984374_1_alg».proof.Proof.HostChain
import proofs.«119647_j1709396984374_1_alg».proof.Proof.Pay0
import proofs.«119647_j1709396984374_1_alg».proof.Proof.Pay1
import proofs.«119647_j1709396984374_1_alg».proof.Proof.Pay2
import proofs.«119647_j1709396984374_1_alg».proof.Proof.Spec
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.GenP Cert.KernelIdeal.Host Cert.Sage

/-- A vector as the function of its one coordinate. -/
abbrev vecOf {d : Nat} (x : (⟨1, ![d]⟩ : Shape).Idx → EReal) : Fin d → EReal := fun q => x (ix1 q)

theorem hidden_congr {n : Nat} {h h' hn hn' : Arr n 128} {ws ws' wn wn' : Arr 128 128} {b b' g g' be be' : Fin 128 → EReal}
    (e0 : h = h') (e1 : hn = hn') (e2 : ws = ws') (e3 : wn = wn') (e4 : b = b') (e5 : g = g') (e6 : be = be') :
    hidden h hn ws wn b g be = hidden h' hn' ws' wn' b' g' be' := by
  rw [e0, e1, e2, e3, e4, e5, e6]

theorem plain_congr {n : Nat} {h h' hn hn' : Arr n 128} {ws ws' wn wn' : Arr 128 47} {b b' : Fin 47 → EReal}
    (e0 : h = h') (e1 : hn = hn') (e2 : ws = ws') (e3 : wn = wn') (e4 : b = b') :
    plain h hn ws wn b = plain h' hn' ws' wn' b' := by
  rw [e0, e1, e2, e3, e4]

/-- A vector reshaped to one row, read as a function of the column, is the vector. -/
theorem row_of_reshape128 (x : (⟨S128, .f32⟩ : BufTy).Contents (Elt Ideal)) :
    (fun q : Fin 128 => (fun i => shapeCast S1x128 x shapeCasts_S128_S1x128 i) (ix2 (0 : Fin 1) q)) = vecOf x :=
  funext fun q => shapeCast_a_1a_apply x shapeCasts_S128_S1x128 0 q
theorem row_of_reshape47 (x : (⟨S47, .f32⟩ : BufTy).Contents (Elt Ideal)) :
    (fun q : Fin 47 => (fun i => shapeCast S1x47 x shapeCasts_S47_S1x47 i) (ix2 (0 : Fin 1) q)) = vecOf x :=
  funext fun q => shapeCast_a_1a_apply x shapeCasts_S47_S1x47 0 q

variable (m : (ℓ : Loc nD τ sig) → Buf (Elt Ideal) ℓ) (ρ : Dev nD → PrngReg)

/-- The neighbour mean of features `h` over the program's own edge arrays and in-degrees. -/
abbrev nb (c : Dev nD) (h : Arr 50000 128) : Arr 50000 128 :=
  neighK h (m ((c : Thread nD τ).loc main_arg1)) (m ((c : Thread nD τ).loc main_arg2)) (degK (m ((c : Thread nD τ).loc main_arg2)))

/-- The node features after the first layer, after the second, and the result. -/
def feat1 (c : Dev nD) : Arr 50000 128 :=
  hidden (m ((c : Thread nD τ).loc main_arg0)) (nb m c (m ((c : Thread nD τ).loc main_arg0))) (m ((c : Thread nD τ).loc main_arg3)) (m ((c : Thread nD τ).loc main_arg4)) (vecOf (m ((c : Thread nD τ).loc main_arg5))) (vecOf (m ((c : Thread nD τ).loc main_arg6))) (vecOf (m ((c : Thread nD τ).loc main_arg7)))
def feat2 (c : Dev nD) : Arr 50000 128 :=
  hidden (feat1 m c) (nb m c (feat1 m c)) (m ((c : Thread nD τ).loc main_arg8)) (m ((c : Thread nD τ).loc main_arg9)) (vecOf (m ((c : Thread nD τ).loc main_arg10))) (vecOf (m ((c : Thread nD τ).loc main_arg11))) (vecOf (m ((c : Thread nD τ).loc main_arg12)))
def result (c : Dev nD) : Arr 50000 47 :=
  plain (feat2 m c) (nb m c (feat2 m c)) (m ((c : Thread nD τ).loc main_arg13)) (m ((c : Thread nD τ).loc main_arg14)) (vecOf (m ((c : Thread nD τ).loc main_arg15)))

/-! ## The first layer -/

theorem w2_v22 (c : Dev nD) : W2 m ρ c (Proc.devRef .tc main_v22) = feat1 m c :=
  (W2_arr m ρ c 7).trans ((Tiles0.final0 (V1 m ρ) Cert.Sage.Kernel.pay0_eq c).trans
    (hidden_congr (e1_arg0 m ρ c) (e1_v18 m ρ c) (e1_arg3 m ρ c) (e1_arg4 m ρ c)
      ((congrArg (fun x => (fun q : Fin 128 => x (ix2 (0 : Fin 1) q))) (e1_v19 m ρ c)).trans (row_of_reshape128 _))
      ((congrArg (fun x => (fun q : Fin 128 => x (ix2 (0 : Fin 1) q))) (e1_v20 m ρ c)).trans (row_of_reshape128 _))
      ((congrArg (fun x => (fun q : Fin 128 => x (ix2 (0 : Fin 1) q))) (e1_v21 m ρ c)).trans (row_of_reshape128 _))))

/-! ## The second layer -/

theorem w3_v22 (c : Dev nD) : W3 m ρ c (Proc.devRef .tc main_v22) = feat1 m c := (k3_v22 m ρ c).trans (w2_v22 m ρ c)
theorem w3_v34 (c : Dev nD) : W3 m ρ c (Proc.devRef .tc main_v34) = nb m c (feat1 m c) := by
  rw [e3_v34, w2_v22, k2_arg1, e1_arg1, k2_arg2, e1_arg2, k2_v6, e1_v6]
theorem w3_arg8 (c : Dev nD) : W3 m ρ c (Proc.devRef .tc main_arg8) = (m ((c : Thread nD τ).loc main_arg8)) := by rw [k3_arg8, k2_arg8, e1_arg8]
theorem w3_arg9 (c : Dev nD) : W3 m ρ c (Proc.devRef .tc main_arg9) = (m ((c : Thread nD τ).loc main_arg9)) := by rw [k3_arg9, k2_arg9, e1_arg9]
theorem w3_v35 (c : Dev nD) : (fun q : Fin 128 => W3 m ρ c (Proc.devRef .tc main_v35) (ix2 (0 : Fin 1) q)) = vecOf (m ((c : Thread nD τ).loc main_arg10)) := by
  rw [e3_v35, k2_arg10, e1_arg10]; exact row_of_reshape128 _
theorem w3_v36 (c : Dev nD) : (fun q : Fin 128 => W3 m ρ c (Proc.devRef .tc main_v36) (ix2 (0 : Fin 1) q)) = vecOf (m ((c : Thread nD τ).loc main_arg11)) := by
  rw [e3_v36, k2_arg11, e1_arg11]; exact row_of_reshape128 _
theorem w3_v37 (c : Dev nD) : (fun q : Fin 128 => W3 m ρ c (Proc.devRef .tc main_v37) (ix2 (0 : Fin 1) q)) = vecOf (m ((c : Thread nD τ).loc main_arg12)) := by
  rw [e3_v37, k2_arg12, e1_arg12]; exact row_of_reshape128 _

theorem w4_v38 (c : Dev nD) : W4 m ρ c (Proc.devRef .tc main_v38) = feat2 m c :=
  (W4_arr m ρ c 7).trans ((Tiles1.final1 (V3 m ρ) Cert.Sage.Kernel.pay1_eq c).trans
    (hidden_congr (w3_v22 m ρ c) (w3_v34 m ρ c) (w3_arg8 m ρ c) (w3_arg9 m ρ c) (w3_v35 m ρ c) (w3_v36 m ρ c) (w3_v37 m ρ c)))

/-! ## The output layer -/

theorem w5_v38 (c : Dev nD) : W5 m ρ c (Proc.devRef .tc main_v38) = feat2 m c := (k5_v38 m ρ c).trans (w4_v38 m ρ c)
theorem w5_v50 (c : Dev nD) : W5 m ρ c (Proc.devRef .tc main_v50) = nb m c (feat2 m c) := by
  rw [e5_v50, w4_v38, k4_arg1, k3_arg1, k2_arg1, e1_arg1, k4_arg2, k3_arg2, k2_arg2, e1_arg2, k4_v6, k3_v6, k2_v6, e1_v6]
theorem w5_arg13 (c : Dev nD) : W5 m ρ c (Proc.devRef .tc main_arg13) = (m ((c : Thread nD τ).loc main_arg13)) := by rw [k5_arg13, k4_arg13, k3_arg13, k2_arg13, e1_arg13]
theorem w5_arg14 (c : Dev nD) : W5 m ρ c (Proc.devRef .tc main_arg14) = (m ((c : Thread nD τ).loc main_arg14)) := by rw [k5_arg14, k4_arg14, k3_arg14, k2_arg14, e1_arg14]
theorem w5_v51 (c : Dev nD) : (fun q : Fin 47 => W5 m ρ c (Proc.devRef .tc main_v51) (ix2 (0 : Fin 1) q)) = vecOf (m ((c : Thread nD τ).loc main_arg15)) := by
  rw [e5_v51, k4_arg15, k3_arg15, k2_arg15, e1_arg15]; exact row_of_reshape47 _

theorem w6_v52 (c : Dev nD) : W6 m ρ c (Proc.devRef .tc main_v52) = result m c :=
  (W6_arr m ρ c 5).trans ((Tiles2.final2 (V5 m ρ) Cert.Sage.Kernel.pay2_eq c).trans
    (plain_congr (w5_v38 m ρ c) (w5_v50 m ρ c) (w5_arg13 m ρ c) (w5_arg14 m ρ c) (w5_v51 m ρ c)))

/-! ## The run -/

/-- Every weakly fair execution of the idealized kernel program terminates with the result array at `result` and the
    arguments unchanged. -/
theorem run : θ_run defs (onTc (τ := τ) (main (F := Ideal))) ⟨m, fun _ => 0, ρ⟩ (fun r => ∀ c : Dev nD,
      r.2.mem ((c.tc : Thread nD τ).loc main_v52) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (w6_v52 m ρ c), (h c).2⟩) (Named.run_named m ρ)

end Cert.KernelIdeal.Whole

end
-- ==== Proof.RefLayers.lean ====
/-
  The reference program's value as the specification's three layers.  Each layer's host term is written once over
  arbitrary operands and read at a row and a column; the neighbour mean (gather, add per destination, divide by the
  edge count) stays one opaque function `neigh`; the program's stages are those terms applied to its arguments.
-/
import proofs.«119647_j1709396984374_1_alg».proof.Proof.Gen.ReferenceIdeal.Read
import proofs.«119647_j1709396984374_1_alg».proof.Proof.Spec

noncomputable section

namespace Cert.Sage.Ref

open Cert.ReferenceIdeal Cert.ReferenceIdeal.Gen Cert.ReferenceIdeal.Read Idealize.ShloMosaic Idealize.ShloMosaic.ValueIdx Idealize.ShloMosaic.TcCoe Idealize.SL.Sem

/-- Node features: one row of 128 numbers per node. -/
abbrev Feat : Type := FVec Ideal S50000x128 .f32
/-- One number per node, kept as a column. -/
abbrev Col : Type := FVec Ideal S50000x1 .f32
/-- A square weight matrix. -/
abbrev Mat128 : Type := FVec Ideal S128x128 .f32
/-- A vector of 128 numbers (bias, scale or shift). -/
abbrev Row128 : Type := FVec Ideal S128 .f32

/-! ## The host operations, one at a time, read at a row and a column -/

/-- The matrix product at row `r`, column `q` is the sum over the contracted coordinate. -/
theorem dot_apply (A : Feat) (W : Mat128) (r : Fin 50000) (q : Fin 128) :
    Host.dotGeneral (F := Ideal) dot_S50000x128_S128x128_S50000x128_1_0_0_1_n_n none A W (ix2 r q)
      = ∑ k : Fin 128, A (ix2 r k) * W (ix2 k q) := by
  refine (val_main_v19_apply A W (ix2 r q)).trans (Finset.sum_congr rfl fun k _ => ?_)
  have el : lidx_main_v19 (ix2 r q) k = ix2 r k :=
    funext fun a => by match a with | ⟨0, _⟩ => rfl | ⟨1, _⟩ => rfl
  have er : ridx_main_v19 (ix2 r q) k = ix2 k q :=
    funext fun a => by match a with | ⟨0, _⟩ => rfl | ⟨1, _⟩ => rfl
  rw [el, er]

/-- A vector of 128 numbers laid along every row reads its `q`-th entry in column `q`. -/
theorem alongRows_apply (b : Row128) (r : Fin 50000) (q : Fin 128) :
    broadcastInDim S50000x128 ![0, 1] bcast_S1x128_S50000x128_0_1 (broadcastInDim S1x128 ![1] bcast_S128_S1x128_1 b) (ix2 r q)
      = b (ix1 q) := by
  refine (val_main_v23_apply (F := Ideal) b (ix2 r q)).trans ((val_main_v22_apply (F := Ideal) b _).trans (congrArg b ?_))
  funext a
  match a with | ⟨0, _⟩ => rfl

/-- The sum along a row, started from the zero word, is the sum of the row's 128 entries. -/
theorem rowSum_apply (Y : Feat) (r : Fin 50000) :
    Host.reduceAdd (F := Ideal) Y (constant S_ .f32 0x00000000#32) reducesTo_S50000x128_S50000_d1 h_S_ (ix1 r)
      = ∑ k : Fin 128, Y (ix2 r k) := by
  simp only [Host.reduceAdd, Ideal.hostReduceAdd_def]
  rw [Ideal.hostReduceAdd_single reducesTo_S50000x128_S50000_d1 (by decide)]
  rw [constant_apply, Ideal.ofBits_zero_f32, zero_add]
  refine Finset.sum_congr rfl fun k _ => ?_
  exact congrArg Y (funext fun a => Fin.ext (by match a with | ⟨0, _⟩ => rfl | ⟨1, _⟩ => rfl))

/-- One number per node, set as a column, reads the node's number. -/
theorem asCol_apply (y : FVec Ideal S50000 .f32) (r : Fin 50000) (z : Fin 1) :
    broadcastInDim S50000x1 ![0] bcast_S50000_S50000x1_0 y (ix2 r z) = y (ix1 r) :=
  broadcastInDim_apply _ bcast_S50000_S50000x1_0 y (ix2 r z) (ix1 r) (fun a => match a with
    | ⟨0, _⟩ => by show r.val = if (50000 : Nat) = 1 then 0 else r.val; rw [if_neg (by decide)])

/-- A column spread over the 128 features reads the node's number in every column. -/
theorem spread_apply (y : Col) (r : Fin 50000) (q : Fin 128) :
    broadcastInDim S50000x128 ![0, 1] bcast_S50000x1_S50000x128_0_1 y (ix2 r q) = y (ix2 r 0) :=
  broadcastInDim_apply _ bcast_S50000x1_S50000x128_0_1 y (ix2 r q) (ix2 r 0) (fun a => match a with
    | ⟨0, _⟩ => by show r.val = if (50000 : Nat) = 1 then 0 else r.val; rw [if_neg (by decide)]
    | ⟨1, _⟩ => by show 0 = if (1 : Nat) = 1 then 0 else q.val; rw [if_pos rfl])

/-- A constant column reads the constant's word. -/
theorem constCol_apply (w : BitVec 32) (i : S50000x1.Idx) :
    broadcastInDim S50000x1 ![] bcast_S_S50000x1 (constant (F := Ideal) S_ .f32 w) i = Ideal.ofBits .f32 w :=
  broadcastInDim_apply _ bcast_S_S50000x1 (constant (F := Ideal) S_ .f32 w) i (fun a => a.elim0) (fun a => a.elim0)

/-- A constant matrix reads the constant's word. -/
theorem constFeat_apply (w : BitVec 32) (i : S50000x128.Idx) :
    broadcastInDim S50000x128 ![] bcast_S_S50000x128 (constant (F := Ideal) S_ .f32 w) i = Ideal.ofBits .f32 w :=
  broadcastInDim_apply _ bcast_S_S50000x128 (constant (F := Ideal) S_ .f32 w) i (fun a => a.elim0) (fun a => a.elim0)

/-! ## The linear part -/

/-- The host term of a layer's linear part: the two matrix products, added, plus the bias along every row. -/
def linear (h hn : Feat) (ws wn : Mat128) (b : Row128) : Feat :=
  addf (addf (Host.dotGeneral dot_S50000x128_S128x128_S50000x128_1_0_0_1_n_n none h ws)
      (Host.dotGeneral dot_S50000x128_S128x128_S50000x128_1_0_0_1_n_n none hn wn))
    (broadcastInDim S50000x128 ![0, 1] bcast_S1x128_S50000x128_0_1 (broadcastInDim S1x128 ![1] bcast_S128_S1x128_1 b))

theorem linear_apply (h hn : Feat) (ws wn : Mat128) (b : Row128) (r : Fin 50000) (q : Fin 128) :
    linear h hn ws wn b (ix2 r q) = Cert.Sage.pre (Cert.Sage.row h r) (Cert.Sage.row hn r) ws wn (fun j => b (ix1 j)) q := by
  unfold linear Cert.Sage.pre Cert.Sage.row
  rw [addf_apply, addf_apply, dot_apply, dot_apply, alongRows_apply]

/-! ## Row normalisation, scale, shift, positive part -/

/-- The host term of a row mean, kept as a column: the row sums divided by the 128.0 splat. -/
def colMean (X : Feat) : Col :=
  Host.divf (broadcastInDim S50000x1 ![0] bcast_S50000_S50000x1_0
      (Host.reduceAdd X (constant S_ .f32 0x00000000#32) reducesTo_S50000x128_S50000_d1 h_S_))
    (broadcastInDim S50000x1 ![] bcast_S_S50000x1 (constant S_ .f32 0x43000000#32))

theorem colMean_apply (X : Feat) (r : Fin 50000) (z : Fin 1) :
    colMean X (ix2 r z) = Cert.Sage.mean (fun k => X (ix2 r k)) := by
  show Ideal.div (broadcastInDim S50000x1 ![0] bcast_S50000_S50000x1_0
      (Host.reduceAdd (F := Ideal) X (constant S_ .f32 0x00000000#32) reducesTo_S50000x128_S50000_d1 h_S_) (ix2 r z))
    (broadcastInDim S50000x1 ![] bcast_S_S50000x1 (constant (F := Ideal) S_ .f32 0x43000000#32) (ix2 r z))
      = Ideal.div (∑ k : Fin 128, X (ix2 r k)) (Ideal.ofBits .f32 0x43000000#32)
  rw [asCol_apply, rowSum_apply, constCol_apply]

/-- The deviations from the row mean. -/
def centred (X : Feat) : Feat :=
  subf X (broadcastInDim S50000x128 ![0, 1] bcast_S50000x1_S50000x128_0_1 (colMean X))

theorem centred_apply (X : Feat) (r : Fin 50000) (q : Fin 128) :
    centred X (ix2 r q) = X (ix2 r q) - Cert.Sage.mean (fun k => X (ix2 r k)) := by
  unfold centred
  rw [subf_apply, spread_apply, colMean_apply]

/-- The host term of the normalisation: the deviations times the reciprocal root of (their mean square plus ε),
    times the scale, plus the shift, and the positive part against the zero splat. -/
def normalise (X : Feat) (g be : Row128) : Feat :=
  maximumf
    (addf
      (mulf
        (mulf (centred X)
          (broadcastInDim S50000x128 ![0, 1] bcast_S50000x1_S50000x128_0_1
            (Host.rsqrt (addf (colMean (mulf (centred X) (centred X)))
              (broadcastInDim S50000x1 ![] bcast_S_S50000x1 (constant S_ .f32 0x3727C5AC#32))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 be)))
    (broadcastInDim S50000x128 ![] bcast_S_S50000x128 (constant S_ .f32 0x00000000#32))

theorem normalise_apply (X : Feat) (g be : Row128) (r : Fin 50000) (q : Fin 128) :
    normalise X g be (ix2 r q)
      = Cert.Sage.normRelu (fun k => X (ix2 r k)) (fun j => g (ix1 j)) (fun j => be (ix1 j)) q := by
  have hr : (Host.rsqrt (F := Ideal) (addf (colMean (mulf (centred X) (centred X)))
        (broadcastInDim S50000x1 ![] bcast_S_S50000x1 (constant S_ .f32 0x3727C5AC#32)))) (ix2 r 0)
      = Ideal.rsqrt (Cert.Sage.mean (fun j => (X (ix2 r j) - Cert.Sage.mean (fun k => X (ix2 r k)))
            * (X (ix2 r j) - Cert.Sage.mean (fun k => X (ix2 r k)))) + Ideal.ofBits .f32 0x3727C5AC#32) := by
    show Ideal.rsqrt (colMean (mulf (centred X) (centred X)) (ix2 r 0)
        + broadcastInDim S50000x1 ![] bcast_S_S50000x1 (constant (F := Ideal) S_ .f32 0x3727C5AC#32) (ix2 r 0)) = _
    rw [colMean_apply, constCol_apply]
    simp only [mulf_apply, centred_apply]
  unfold normalise Cert.Sage.normRelu
  rw [maximumf_apply, addf_apply, mulf_apply, mulf_apply, spread_apply, hr, centred_apply, alongRows_apply,
    alongRows_apply, constFeat_apply]

/-! ## A hidden layer -/

/-- The reference's host term of a hidden layer over arbitrary operands: features `h`, neighbour means `hn`,
    the two weight matrices, bias, scale, shift. -/
def refHidden (h hn : Feat) (ws wn : Mat128) (b g be : Row128) : Feat :=
  normalise (linear h hn ws wn b) g be

/-- It is the specification's hidden layer. -/
theorem refHidden_eq (h hn : Feat) (ws wn : Mat128) (b g be : Row128) :
    refHidden h hn ws wn b g be
      = Cert.Sage.hidden h hn ws wn (fun j => b (ix1 j)) (fun j => g (ix1 j)) (fun j => be (ix1 j)) := by
  funext i
  obtain ⟨r, q, rfl⟩ : ∃ (r : Fin 50000) (q : Fin 128), i = ix2 r q := ⟨i 0, i 1, eq_ix2 i⟩
  show normalise (linear h hn ws wn b) g be (ix2 r q)
    = Cert.Sage.normRelu (Cert.Sage.pre (Cert.Sage.row h r) (Cert.Sage.row hn r) ws wn (fun j => b (ix1 j)))
        (fun j => g (ix1 j)) (fun j => be (ix1 j)) q
  rw [normalise_apply]
  congr 1
  funext k
  exact linear_apply h hn ws wn b r k

/-! ## The output layer -/

/-- An output weight matrix: 128 features to 47 classes. -/
abbrev MatOut : Type := FVec Ideal S128x47 .f32
/-- The output bias. -/
abbrev RowOut : Type := FVec Ideal S47 .f32
/-- The result: one row of 47 numbers per node. -/
abbrev Out : Type := FVec Ideal S50000x47 .f32

/-- The output layer's matrix product at row `r`, class `q`: the sum over the contracted coordinate. -/
theorem dotOut_apply (A : Feat) (W : MatOut) (r : Fin 50000) (q : Fin 47) :
    Host.dotGeneral (F := Ideal) dot_S50000x128_S128x47_S50000x47_1_0_0_1_n_n none A W (ix2 r q)
      = ∑ k : Fin 128, A (ix2 r k) * W (ix2 k q) := by
  simp only [Host.dotGeneral]
  rw [Ideal.dotGeneral_apply, ← Equiv.sum_comp (contrEquiv1 dot_S50000x128_S128x47_S50000x47_1_0_0_1_n_n 128 rfl rfl).symm]
  refine Finset.sum_congr rfl fun k _ => ?_
  have hk := contrEquiv1_symm_val dot_S50000x128_S128x47_S50000x47_1_0_0_1_n_n 128 rfl rfl k
  have el : dot_S50000x128_S128x47_S50000x47_1_0_0_1_n_n.lhsIdx (ix2 r q)
      ((contrEquiv1 dot_S50000x128_S128x47_S50000x47_1_0_0_1_n_n 128 rfl rfl).symm k) = ix2 r k :=
    funext fun a => Fin.ext (by
      match a with
      | ⟨0, _⟩ => exact lhs_main_v119_0 _ _
      | ⟨1, _⟩ => exact (lhs_main_v119_1 _ _).trans hk)
  have er : dot_S50000x128_S128x47_S50000x47_1_0_0_1_n_n.rhsIdx (ix2 r q)
      ((contrEquiv1 dot_S50000x128_S128x47_S50000x47_1_0_0_1_n_n 128 rfl rfl).symm k) = ix2 k q :=
    funext fun a => Fin.ext (by
      match a with
      | ⟨0, _⟩ => exact (rhs_main_v119_0 _ _).trans hk
      | ⟨1, _⟩ => exact rhs_main_v119_1 _ _)
  rw [el, er]

/-- The output bias laid along every row reads its `q`-th entry in column `q`. -/
theorem alongRowsOut_apply (b : RowOut) (r : Fin 50000) (q : Fin 47) :
    broadcastInDim S50000x47 ![0, 1] bcast_S1x47_S50000x47_0_1 (broadcastInDim S1x47 ![1] bcast_S47_S1x47_1 b) (ix2 r q)
      = b (ix1 q) := by
  refine (val_main_v123_apply (F := Ideal) b (ix2 r q)).trans ((val_main_v122_apply (F := Ideal) b _).trans (congrArg b ?_))
  funext a
  match a with | ⟨0, _⟩ => rfl

/-- The reference's host term of the output layer over arbitrary operands. -/
def refPlain (h hn : Feat) (ws wn : MatOut) (b : RowOut) : Out :=
  addf (addf (Host.dotGeneral dot_S50000x128_S128x47_S50000x47_1_0_0_1_n_n none h ws)
      (Host.dotGeneral dot_S50000x128_S128x47_S50000x47_1_0_0_1_n_n none hn wn))
    (broadcastInDim S50000x47 ![0, 1] bcast_S1x47_S50000x47_0_1 (broadcastInDim S1x47 ![1] bcast_S47_S1x47_1 b))

/-- It is the specification's output layer. -/
theorem refPlain_eq (h hn : Feat) (ws wn : MatOut) (b : RowOut) :
    refPlain h hn ws wn b = Cert.Sage.plain h hn ws wn (fun j => b (ix1 j)) := by
  funext i
  obtain ⟨r, q, rfl⟩ : ∃ (r : Fin 50000) (q : Fin 47), i = ix2 r q := ⟨i 0, i 1, eq_ix2 i⟩
  show refPlain h hn ws wn b (ix2 r q)
    = Cert.Sage.pre (Cert.Sage.row h r) (Cert.Sage.row hn r) ws wn (fun j => b (ix1 j)) q
  unfold refPlain Cert.Sage.pre Cert.Sage.row
  rw [addf_apply, addf_apply, dotOut_apply, dotOut_apply, alongRowsOut_apply]

/-! ## The neighbour mean, and the three layers of the program -/

/-- One node number per edge. -/
abbrev Edges : Type := IVec S800000 32

/-- The neighbour mean, as one opaque function of the features `h` and the edge lists: gather the source rows
    (a negative source index wrapped by the node count), add them up per destination node, and divide by the
    destination's edge count, at least one. -/
def neigh (h : Feat) (src dst : Edges) : Feat :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The first layer's neighbour mean is `neigh` of the input features. -/
theorem neigh0_eq (x0 : Feat) (x1 x2 : Edges) :
    val_main_v18 (F := Ideal) x0 x1 x2 = neigh x0 x1 x2 := rfl

/-- The first hidden layer of the program is the host term of a hidden layer on the input features. -/
theorem layer0_eq (x0 : Feat) (x1 x2 : Edges) (x3 x4 : Mat128) (x5 x6 x7 : Row128) :
    val_main_v49 (F := Ideal) x0 x1 x2 x3 x4 x5 x6 x7 = refHidden x0 (neigh x0 x1 x2) x3 x4 x5 x6 x7 := rfl

/-- The second layer's neighbour mean is `neigh` of the first layer's result. -/
theorem neigh1_eq (x0 : Feat) (x1 x2 : Edges) (x3 x4 : Mat128) (x5 x6 x7 : Row128) :
    val_main_v68 (F := Ideal) x0 x1 x2 x3 x4 x5 x6 x7 = neigh (val_main_v49 (F := Ideal) x0 x1 x2 x3 x4 x5 x6 x7) x1 x2 := rfl

/-- The second hidden layer of the program is the host term of a hidden layer on the first layer's result. -/
theorem layer1_eq (x0 : Feat) (x1 x2 : Edges) (x3 x4 : Mat128) (x5 x6 x7 : Row128) (x8 x9 : Mat128) (x10 x11 x12 : Row128) :
    val_main_v99 (F := Ideal) x0 x1 x2 x3 x4 x5 x6 x7 x8 x9 x10 x11 x12
      = refHidden (val_main_v49 (F := Ideal) x0 x1 x2 x3 x4 x5 x6 x7)
          (neigh (val_main_v49 (F := Ideal) x0 x1 x2 x3 x4 x5 x6 x7) x1 x2) x8 x9 x10 x11 x12 := rfl

/-- The output layer's neighbour mean is `neigh` of the second layer's result. -/
theorem neigh2_eq (x0 : Feat) (x1 x2 : Edges) (x3 x4 : Mat128) (x5 x6 x7 : Row128) (x8 x9 : Mat128) (x10 x11 x12 : Row128) :
    val_main_v118 (F := Ideal) x0 x1 x2 x3 x4 x5 x6 x7 x8 x9 x10 x11 x12
      = neigh (val_main_v99 (F := Ideal) x0 x1 x2 x3 x4 x5 x6 x7 x8 x9 x10 x11 x12) x1 x2 := rfl

/-- The program's result is the host term of the output layer on the second layer's result. -/
theorem layer2_eq (x0 : Feat) (x1 x2 : Edges) (x3 x4 : Mat128) (x5 x6 x7 : Row128) (x8 x9 : Mat128) (x10 x11 x12 : Row128) (x13 x14 : MatOut) (x15 : RowOut) :
    val_main_v124 (F := Ideal) x0 x1 x2 x3 x4 x5 x6 x7 x8 x9 x10 x11 x12 x13 x14 x15
      = refPlain (val_main_v99 (F := Ideal) x0 x1 x2 x3 x4 x5 x6 x7 x8 x9 x10 x11 x12)
          (neigh (val_main_v99 (F := Ideal) x0 x1 x2 x3 x4 x5 x6 x7 x8 x9 x10 x11 x12) x1 x2) x13 x14 x15 := rfl

/-- The first hidden layer's result, in the specification's terms. -/
def H1 (x0 : Feat) (x1 x2 : Edges) (x3 x4 : Mat128) (x5 x6 x7 : Row128) : Feat :=
  Cert.Sage.hidden x0 (neigh x0 x1 x2) x3 x4 (fun q => x5 (ix1 q)) (fun q => x6 (ix1 q)) (fun q => x7 (ix1 q))

/-- The second hidden layer's result, in the specification's terms. -/
def H2 (x0 : Feat) (x1 x2 : Edges) (x3 x4 : Mat128) (x5 x6 x7 : Row128) (x8 x9 : Mat128) (x10 x11 x12 : Row128) : Feat :=
  Cert.Sage.hidden (H1 x0 x1 x2 x3 x4 x5 x6 x7) (neigh (H1 x0 x1 x2 x3 x4 x5 x6 x7) x1 x2) x8 x9
    (fun q => x10 (ix1 q)) (fun q => x11 (ix1 q)) (fun q => x12 (ix1 q))

theorem layer0_spec (x0 : Feat) (x1 x2 : Edges) (x3 x4 : Mat128) (x5 x6 x7 : Row128) :
    val_main_v49 (F := Ideal) x0 x1 x2 x3 x4 x5 x6 x7 = H1 x0 x1 x2 x3 x4 x5 x6 x7 :=
  (layer0_eq x0 x1 x2 x3 x4 x5 x6 x7).trans (refHidden_eq x0 (neigh x0 x1 x2) x3 x4 x5 x6 x7)

theorem layer1_spec (x0 : Feat) (x1 x2 : Edges) (x3 x4 : Mat128) (x5 x6 x7 : Row128) (x8 x9 : Mat128) (x10 x11 x12 : Row128) :
    val_main_v99 (F := Ideal) x0 x1 x2 x3 x4 x5 x6 x7 x8 x9 x10 x11 x12 = H2 x0 x1 x2 x3 x4 x5 x6 x7 x8 x9 x10 x11 x12 := by
  rw [layer1_eq, refHidden_eq, layer0_spec]
  rfl

/-- The reference program's value is the specification's three layers: two hidden layers and the output layer, each on
    the previous layer's result and its neighbour mean. -/
theorem ref_eq (x0 : Feat) (x1 x2 : Edges) (x3 x4 : Mat128) (x5 x6 x7 : Row128) (x8 x9 : Mat128) (x10 x11 x12 : Row128) (x13 x14 : MatOut) (x15 : RowOut) :
    val_main_v124 (F := Ideal) x0 x1 x2 x3 x4 x5 x6 x7 x8 x9 x10 x11 x12 x13 x14 x15
      = Cert.Sage.plain (H2 x0 x1 x2 x3 x4 x5 x6 x7 x8 x9 x10 x11 x12) (neigh (H2 x0 x1 x2 x3 x4 x5 x6 x7 x8 x9 x10 x11 x12) x1 x2) x13 x14 (fun q => x15 (ix1 q)) := by
  rw [layer2_eq, refPlain_eq, layer1_spec]

/-- The reference run's result, in the specification's terms, as a function of the launch contents `m` of the program's
    arguments on device `c`. -/
theorem res_eq (m : (ℓ : Loc nD τ sig) → Buf (Elt Ideal) ℓ) (c : Dev nD) :
    Cert.ReferenceIdeal.Value.res_main_v124 (F := Ideal) m c
      = Cert.Sage.plain (H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
          (neigh (H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg1)) (m ((c.tc : Thread nD τ).loc main_arg2)))
          (m ((c.tc : Thread nD τ).loc main_arg13)) (m ((c.tc : Thread nD τ).loc main_arg14)) (fun q => (m ((c.tc : Thread nD τ).loc main_arg15)) (ix1 q)) :=
  (val_main_v124_eq (F := Ideal) m c).trans (ref_eq _ _ _ _ _ _ _ _ _ _ _ _ _ _ _ _)

end Cert.Sage.Ref

end
-- ==== Proof.lean ====
/-
  A three-layer graph network — gather along edges, add at the destination, divide by the in-degree; two linear maps
  and a bias; on the two hidden layers row normalisation, scale, shift and the positive part — written twice: as three
  row-tiled layer computations among host operations, and as plain whole-array host operations.  Over the extended
  reals the two programs compute ONE function of their arguments:
    * the neighbour mean is formed by the very same host operations in both, and is carried as one opaque function;
    * a layer's row depends only on that row of the features and of the neighbour means, so ten tiles of 5000 rows
      assemble the whole-array layer;
    * inside a tile, the narrowing of the matrix product's operands is the identity, the product into a zero
      accumulator is the plain sum over the contracted index, and the lane sum is the host's sum with initial value 0.
  No law beyond these re-indexings is used, so the finiteness of the inputs is never opened.  The frames are the
  programs' runs with the results dropped; nothing was rewritten between the kernel program and its idealization.
-/
import proofs.«119647_j1709396984374_1_alg».proof.Defs
import proofs.«119647_j1709396984374_1_alg».proof.Proof.Gen.Kernel
import proofs.«119647_j1709396984374_1_alg».proof.Proof.Gen.KernelIdeal
import proofs.«119647_j1709396984374_1_alg».proof.Proof.Gen.ReferenceIdeal
import proofs.«119647_j1709396984374_1_alg».proof.Proof.Gen.Pre_finite_inputs
import proofs.«119647_j1709396984374_1_alg».proof.Proof.Gen.ReferenceIdeal.Run
import proofs.«119647_j1709396984374_1_alg».proof.Proof.Gen.ReferenceIdeal.Read
import proofs.«119647_j1709396984374_1_alg».proof.Proof.KernelFrameP
import proofs.«119647_j1709396984374_1_alg».proof.Proof.KernelIdealFrameP
import proofs.«119647_j1709396984374_1_alg».proof.Proof.KernelWhole
import proofs.«119647_j1709396984374_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The neighbour mean is one function in the two programs: the same host operations over the same dimension records. -/
theorem neigh_eq (h : FVec Ideal Cert.KernelIdeal.S50000x128 .f32) (src dst : IVec Cert.KernelIdeal.S800000 32) :
    Cert.KernelIdeal.Host.neighK h src dst (Cert.KernelIdeal.Host.degK dst) = Cert.Sage.Ref.neigh h src dst := rfl

/-- Both programs end with the same result array: the three-layer function of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [Cert.ReferenceIdeal.Read.val_main_v124_eq, Cert.Sage.Ref.ref_eq, a0, a1, a2, a3, a4, a5, a6, a7, a8, a9, a10, a11, a12, a13, a14, a15]
  unfold Cert.KernelIdeal.Whole.result Cert.KernelIdeal.Whole.feat2 Cert.KernelIdeal.Whole.feat1 Cert.Sage.Ref.H2 Cert.Sage.Ref.H1
  simp only [neigh_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
